-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x16 : Shape := ⟨2, ![131072, 16]⟩
abbrev S256x8 : Shape := ⟨2, ![256, 8]⟩
abbrev S256 : Shape := ⟨1, ![256]⟩
abbrev S256x256 : Shape := ⟨2, ![256, 256]⟩
abbrev S8x256 : Shape := ⟨2, ![8, 256]⟩
abbrev S8 : Shape := ⟨1, ![8]⟩
abbrev S_ : Shape := ⟨0, ![]⟩

class Facts : Prop where
  bcast_S_S131072x16 : S_.BroadcastsInDim S131072x16 (![] : Fin 0 → Fin S131072x16.rank)
  reducesTo_S131072x16_S_d0_1 : S131072x16.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part7 {F : FTy → Type} [FloatOps F] (main_v118 : IVec S_ 1) (main_v119 : FVec F S8 .f32) : IVec S_ 1 :=
  let main_cst_46 : FVec F S_ .f32 := constant S_ .f32 0x7F800000#32
  let main_v120 : FVec F S8 .f32 := broadcastInDim S8 ![] bcast_S_S8 main_cst_46
  let main_v121 : IVec S8 1 := cmpf .olt main_v119 main_v120
  let main_c_47 : IVec S_ 1 := constantI S_ 1 1#1
  let main_v122 : IVec S_ 1 := (fun x v => Host.reduce IntOp.andi x v reducesTo_S8_S_d0 h_S_) main_v121 main_c_47
  let main_v123 : IVec S_ 1 := andi main_v118 main_v122
  main_v123

def fn_part6 {F : FTy → Type} [FloatOps F] (main_arg21 : FVec F S256x256 .f32) (main_arg22 : FVec F S256 .f32) (main_arg23 : FVec F S8x256 .f32) (main_arg24 : FVec F S8 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S8x256 .f32 := Host.absf main_arg23
  let main_cst_44 : FVec F S_ .f32 := constant S_ .f32 0x7F800000#32
  let main_v115 : FVec F S8x256 .f32 := broadcastInDim S8x256 ![] bcast_S_S8x256 main_cst_44
  let main_v116 : IVec S8x256 1 := cmpf .olt main_v114 main_v115
  let main_c_45 : IVec S_ 1 := constantI S_ 1 1#1
  let main_v117 : IVec S_ 1 := (fun x v => Host.reduce IntOp.andi x v reducesTo_S8x256_S_d0_1 h_S_) main_v116 main_c_45
  let main_v118 : IVec S_ 1 := andi main_v113 main_v117
  let main_v119 : FVec F S8 .f32 := Host.absf main_arg24
  fn_part7 (F := F) main_v118 main_v119

def fn_part5 {F : FTy → Type} [FloatOps F] (main_arg18 : FVec F S8 .f32) (main_arg19 : FVec F S256x8 .f32) (main_arg20 : FVec F S256 .f32) (main_arg21 : FVec F S256x256 .f32) (main_arg22 : FVec F S256 .f32) (main_arg23 : FVec F S8x256 .f32) (main_arg24 : FVec F S8 .f32) (main_v83 : IVec S_ 1) (main_v84 : FVec F S8x256 .f32) (main_cst_32 : FVec F S_ .f32) : IVec S_ 1 :=
  let main_v85 : FVec F S8x256 .f32 := broadcastInDim S8x256 ![] bcast_S_S8x256 main_cst_32
  let main_v86 : IVec S8x256 1 := cmpf .olt main_v84 main_v85
  let main_c_33 : IVec S_ 1 := constantI S_ 1 1#1
  let main_v87 : IVec S_ 1 := (fun x v => Host.reduce IntOp.andi x v reducesTo_S8x256_S_d0_1 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S256x8 .f32 := Host.absf main_arg19
  let main_cst_36 : FVec F S_ .f32 := constant S_ .f32 0x7F800000#32
  let main_v95 : FVec F S256x8 .f32 := broadcastInDim S256x8 ![] bcast_S_S256x8 main_cst_36
  let main_v96 : IVec S256x8 1 := cmpf .olt main_v94 main_v95
  let main_c_37 : IVec S_ 1 := constantI S_ 1 1#1
  let main_v97 : IVec S_ 1 := (fun x v => Host.reduce IntOp.andi x v reducesTo_S256x8_S_d0_1 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S256 .f32) (main_arg15 : FVec F S256x256 .f32) (main_arg16 : FVec F S256 .f32) (main_arg17 : FVec F S8x256 .f32) (main_arg18 : FVec F S8 .f32) (main_arg19 : FVec F S256x8 .f32) (main_arg20 : FVec F S256 .f32) (main_arg21 : FVec F S256x256 .f32) (main_arg22 : FVec F S256 .f32) (main_arg23 : FVec F S8x256 .f32) (main_arg24 : FVec F S8 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S8x256 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S8x256 .f32) (main_arg12 : FVec F S8 .f32) (main_arg13 : FVec F S256x8 .f32) (main_arg14 : FVec F S256 .f32) (main_arg15 : FVec F S256x256 .f32) (main_arg16 : FVec F S256 .f32) (main_arg17 : FVec F S8x256 .f32) (main_arg18 : FVec F S8 .f32) (main_arg19 : FVec F S256x8 .f32) (main_arg20 : FVec F S256 .f32) (main_arg21 : FVec F S256x256 .f32) (main_arg22 : FVec F S256 .f32) (main_arg23 : FVec F S8x256 .f32) (main_arg24 : FVec F S8 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S8x256 .f32 := Host.absf main_arg11
  let main_cst_20 : FVec F S_ .f32 := constant S_ .f32 0x7F800000#32
  let main_v55 : FVec F S8x256 .f32 := broadcastInDim S8x256 ![] bcast_S_S8x256 main_cst_20
  let main_v56 : IVec S8x256 1 := cmpf .olt main_v54 main_v55
  let main_c_21 : IVec S_ 1 := constantI S_ 1 1#1
  let main_v57 : IVec S_ 1 := (fun x v => Host.reduce IntOp.andi x v reducesTo_S8x256_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S256x8 .f32 := Host.absf main_arg13
  let main_cst_24 : FVec F S_ .f32 := constant S_ .f32 0x7F800000#32
  let main_v65 : FVec F S256x8 .f32 := broadcastInDim S256x8 ![] bcast_S_S256x8 main_cst_24
  let main_v66 : IVec S256x8 1 := cmpf .olt main_v64 main_v65
  let main_c_25 : IVec S_ 1 := constantI S_ 1 1#1
  let main_v67 : IVec S_ 1 := (fun x v => Host.reduce IntOp.andi x v reducesTo_S256x8_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S256x8 .f32) (main_arg8 : FVec F S256 .f32) (main_arg9 : FVec F S256x256 .f32) (main_arg10 : FVec F S256 .f32) (main_arg11 : FVec F S8x256 .f32) (main_arg12 : FVec F S8 .f32) (main_arg13 : FVec F S256x8 .f32) (main_arg14 : FVec F S256 .f32) (main_arg15 : FVec F S256x256 .f32) (main_arg16 : FVec F S256 .f32) (main_arg17 : FVec F S8x256 .f32) (main_arg18 : FVec F S8 .f32) (main_arg19 : FVec F S256x8 .f32) (main_arg20 : FVec F S256 .f32) (main_arg21 : FVec F S256x256 .f32) (main_arg22 : FVec F S256 .f32) (main_arg23 : FVec F S8x256 .f32) (main_arg24 : FVec F S8 .f32) (main_v33 : IVec S_ 1) : IVec S_ 1 :=
  let main_v34 : FVec F S256x8 .f32 := Host.absf main_arg7
  let main_cst_12 : FVec F S_ .f32 := constant S_ .f32 0x7F800000#32
  let main_v35 : FVec F S256x8 .f32 := broadcastInDim S256x8 ![] bcast_S_S256x8 main_cst_12
  let main_v36 : IVec S256x8 1 := cmpf .olt main_v34 main_v35
  let main_c_13 : IVec S_ 1 := constantI S_ 1 1#1
  let main_v37 : IVec S_ 1 := (fun x v => Host.reduce IntOp.andi x v reducesTo_S256x8_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S256 .f32) (main_arg5 : FVec F S8x256 .f32) (main_arg6 : FVec F S8 .f32) (main_arg7 : FVec F S256x8 .f32) (main_arg8 : FVec F S256 .f32) (main_arg9 : FVec F S256x256 .f32) (main_arg10 : FVec F S256 .f32) (main_arg11 : FVec F S8x256 .f32) (main_arg12 : FVec F S8 .f32) (main_arg13 : FVec F S256x8 .f32) (main_arg14 : FVec F S256 .f32) (main_arg15 : FVec F S256x256 .f32) (main_arg16 : FVec F S256 .f32) (main_arg17 : FVec F S8x256 .f32) (main_arg18 : FVec F S8 .f32) (main_arg19 : FVec F S256x8 .f32) (main_arg20 : FVec F S256 .f32) (main_arg21 : FVec F S256x256 .f32) (main_arg22 : FVec F S256 .f32) (main_arg23 : FVec F S8x256 .f32) (main_arg24 : FVec F S8 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S8x256 .f32 := Host.absf main_arg5
  let main_cst_8 : FVec F S_ .f32 := constant S_ .f32 0x7F800000#32
  let main_v25 : FVec F S8x256 .f32 := broadcastInDim S8x256 ![] bcast_S_S8x256 main_cst_8
  let main_v26 : IVec S8x256 1 := cmpf .olt main_v24 main_v25
  let main_c_9 : IVec S_ 1 := constantI S_ 1 1#1
  let main_v27 : IVec S_ 1 := (fun x v => Host.reduce IntOp.andi x v reducesTo_S8x256_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S131072x16 .f32) (main_arg1 : FVec F S256x8 .f32) (main_arg2 : FVec F S256 .f32) (main_arg3 : FVec F S256x256 .f32) (main_arg4 : FVec F S256 .f32) (main_arg5 : FVec F S8x256 .f32) (main_arg6 : FVec F S8 .f32) (main_arg7 : FVec F S256x8 .f32) (main_arg8 : FVec F S256 .f32) (main_arg9 : FVec F S256x256 .f32) (main_arg10 : FVec F S256 .f32) (main_arg11 : FVec F S8x256 .f32) (main_arg12 : FVec F S8 .f32) (main_arg13 : FVec F S256x8 .f32) (main_arg14 : FVec F S256 .f32) (main_arg15 : FVec F S256x256 .f32) (main_arg16 : FVec F S256 .f32) (main_arg17 : FVec F S8x256 .f32) (main_arg18 : FVec F S8 .f32) (main_arg19 : FVec F S256x8 .f32) (main_arg20 : FVec F S256 .f32) (main_arg21 : FVec F S256x256 .f32) (main_arg22 : FVec F S256 .f32) (main_arg23 : FVec F S8x256 .f32) (main_arg24 : FVec F S8 .f32) : IVec S_ 1 :=
  let main_v0 : FVec F S131072x16 .f32 := Host.absf main_arg0
  let main_cst : FVec F S_ .f32 := constant S_ .f32 0x7F800000#32
  let main_v1 : FVec F S131072x16 .f32 := broadcastInDim S131072x16 ![] bcast_S_S131072x16 main_cst
  let main_v2 : IVec S131072x16 1 := cmpf .olt main_v0 main_v1
  let main_c : IVec S_ 1 := constantI S_ 1 1#1
  let main_v3 : IVec S_ 1 := (fun x v => Host.reduce IntOp.andi x v reducesTo_S131072x16_S_d0_1 h_S_) main_v2 main_c
  let main_v4 : FVec F S256x8 .f32 := Host.absf main_arg1
  let main_cst_0 : FVec F S_ .f32 := constant S_ .f32 0x7F800000#32
  let main_v5 : FVec F S256x8 .f32 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S131072x16 : Shape := ⟨2, ![131072, 16]⟩
abbrev S256x8 : Shape := ⟨2, ![256, 8]⟩
abbrev S256 : Shape := ⟨1, ![256]⟩
abbrev S256x256 : Shape := ⟨2, ![256, 256]⟩
abbrev S8x256 : Shape := ⟨2, ![8, 256]⟩
abbrev S8 : Shape := ⟨1, ![8]⟩
abbrev S512x8 : Shape := ⟨2, ![512, 8]⟩
abbrev S8x512 : Shape := ⟨2, ![8, 512]⟩
abbrev S512 : Shape := ⟨1, ![512]⟩
abbrev S131072x17 : Shape := ⟨2, ![131072, 17]⟩
abbrev S4096x16 : Shape := ⟨2, ![4096, 16]⟩
abbrev S4096x17 : Shape := ⟨2, ![4096, 17]⟩
abbrev S4096x8 : Shape := ⟨2, ![4096, 8]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S1x8 : Shape := ⟨2, ![1, 8]⟩
abbrev S4096 : Shape := ⟨1, ![4096]⟩
abbrev S4096x1 : Shape := ⟨2, ![4096, 1]⟩
abbrev S131072x1 : Shape := ⟨2, ![131072, 1]⟩
abbrev S131072 : Shape := ⟨1, ![131072]⟩

abbrev nBuf : Space → Nat
  | .hbm => 53
  | .vmem => 24
  | .smem => 0
  | _ => 0

abbrev bufTy : (tb : Table) → Fin (tcTables nBuf tb) → BufTy
  | .hbm, ⟨0, _⟩ => ⟨S131072x16, .f32⟩
  | .hbm, ⟨1, _⟩ => ⟨S256x8, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S8x256, .f32⟩
  | .hbm, ⟨6, _⟩ => ⟨S8, .f32⟩
  | .hbm, ⟨7, _⟩ => ⟨S256x8, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S8x256, .f32⟩
  | .hbm, ⟨12, _⟩ => ⟨S8, .f32⟩
  | .hbm, ⟨13, _⟩ => ⟨S256x8, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S8x256, .f32⟩
  | .hbm, ⟨18, _⟩ => ⟨S8, .f32⟩
  | .hbm, ⟨19, _⟩ => ⟨S256x8, .f32⟩
  | .hbm, ⟨20, _⟩ => ⟨S256, .f32⟩
  | .hbm, ⟨21, _⟩ => ⟨S256x256, .f32⟩
  | .hbm, ⟨22, _⟩ => ⟨S256, .f32⟩
  | .hbm, ⟨23, _⟩ => ⟨S8x256, .f32⟩
  | .hbm, ⟨24, _⟩ => ⟨S8, .f32⟩
  | .hbm, ⟨25, _⟩ => ⟨S512x8, .f32⟩
  | .hbm, ⟨26, _⟩ => ⟨S8x512, .f32⟩
  | .hbm, ⟨27, _⟩ => ⟨S8x512, .bf16⟩
  | .hbm, ⟨28, _⟩ => ⟨S512, .f32⟩
  | .hbm, ⟨29, _⟩ => ⟨S512x8, .f32⟩
  | .hbm, ⟨30, _⟩ => ⟨S8x512, .f32⟩
  | .hbm, ⟨31, _⟩ => ⟨S8x512, .bf16⟩
  | .hbm, ⟨32, _⟩ => ⟨S512, .f32⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .bf16⟩
  | .hbm, ⟨37, _⟩ => ⟨S256x256, .f32⟩
  | .hbm, ⟨38, _⟩ => ⟨S256x256, .bf16⟩
  | .hbm, ⟨39, _⟩ => ⟨S256x256, .f32⟩
  | .hbm, ⟨40, _⟩ => ⟨S256x256, .bf16⟩
  | .hbm, ⟨41, _⟩ => ⟨S256x8, .f32⟩
  | .hbm, ⟨42, _⟩ => ⟨S256x8, .bf16⟩
  | .hbm, ⟨43, _⟩ => ⟨S256x8, .f32⟩
  | .hbm, ⟨44, _⟩ => ⟨S256x8, .bf16⟩
  | .hbm, ⟨45, _⟩ => ⟨S256x8, .f32⟩
  | .hbm, ⟨46, _⟩ => ⟨S256x8, .bf16⟩
  | .hbm, ⟨47, _⟩ => ⟨S256x8, .f32⟩
  | .hbm, ⟨48, _⟩ => ⟨S256x8, .bf16⟩
  | .hbm, ⟨49, _⟩ => ⟨S131072x17, .f32⟩
  | .hbm, ⟨50, _⟩ => ⟨S131072x16, .f32⟩
  | .hbm, ⟨51, _⟩ => ⟨S131072x1, .f32⟩
  | .hbm, ⟨52, _⟩ => ⟨S131072, .f32⟩
  | .local _ .vmem, ⟨0, _⟩ => ⟨S4096x16, .f32⟩
  | .local _ .vmem, ⟨1, _⟩ => ⟨S4096x16, .f32⟩
  | .local _ .vmem, ⟨2, _⟩ => ⟨S8x512, .bf16⟩
  | .local _ .vmem, ⟨3, _⟩ => ⟨S512, .f32⟩
  | .local _ .vmem, ⟨4, _⟩ => ⟨S256x256, .bf16⟩
  | .local _ .vmem, ⟨5, _⟩ => ⟨S256, .f32⟩
  | .local _ .vmem, ⟨6, _⟩ => ⟨S256x8, .bf16⟩
  | .local _ .vmem, ⟨7, _⟩ => ⟨S8, .f32⟩
  | .local _ .vmem, ⟨8, _⟩ => ⟨S256x256, .bf16⟩
  | .local _ .vmem, ⟨9, _⟩ => ⟨S256, .f32⟩
  | .local _ .vmem, ⟨10, _⟩ => ⟨S256x8, .bf16⟩
  | .local _ .vmem, ⟨11, _⟩ => ⟨S8, .f32⟩
  | .local _ .vmem, ⟨12, _⟩ => ⟨S8x512, .bf16⟩
  | .local _ .vmem, ⟨13, _⟩ => ⟨S512, .f32⟩
  | .local _ .vmem, ⟨14, _⟩ => ⟨S256x256, .bf16⟩
  | .local _ .vmem, ⟨15, _⟩ => ⟨S256, .f32⟩
  | .local _ .vmem, ⟨16, _⟩ => ⟨S256x8, .bf16⟩
  | .local _ .vmem, ⟨17, _⟩ => ⟨S8, .f32⟩
  | .local _ .vmem, ⟨18, _⟩ => ⟨S256x256, .bf16⟩
  | .local _ .vmem, ⟨19, _⟩ => ⟨S256, .f32⟩
  | .local _ .vmem, ⟨20, _⟩ => ⟨S256x8, .bf16⟩
  | .local _ .vmem, ⟨21, _⟩ => ⟨S8, .f32⟩
  | .local _ .vmem, ⟨22, _⟩ => ⟨S4096x17, .f32⟩
  | .local _ .vmem, ⟨23, _⟩ => ⟨S4096x17, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x8 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x8 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x8 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S4096x17 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  concatenates_S256x8_S256x8_S512x8_d0 : Shape.Concatenates [S256x8, S256x8] S512x8 0
  transposes_S512x8_S8x512_1_0 : S512x8.Transposes [1, 0] S8x512
  bitsLt_bf16_f32 : FTy.bits .bf16 < FTy.bits .f32
  concatenates_S256_S256_S512_d0 : Shape.Concatenates [S256, S256] S512 0
  transposes_S256x256_S256x256_1_0 : S256x256.Transposes [1, 0] S256x256
  transposes_S8x256_S256x8_1_0 : S8x256.Transposes [1, 0] S256x8
  inb_S4096x16_S4096x16_0_0 : ∀ a, (![0, 0] : Fin 2 → Nat) a + S4096x16.size a ≤ S4096x16.size a
  h_S4096x16 : 0 < S4096x16.numel
  slices_S4096x16_o0_0_S4096x8 : S4096x16.Slices ![0, 0] S4096x8
  slices_S4096x16_o0_8_S4096x8 : S4096x16.Slices ![0, 8] S4096x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S4096x512 : S1x512.Broadcasts S4096x512
  slices_S4096x512_o0_0_S4096x256 : S4096x512.Slices ![0, 0] S4096x256
  slices_S4096x512_o0_256_S4096x256 : S4096x512.Slices ![0, 256] S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S8_S8_0 : ∀ a, (![0] : Fin 1 → Nat) a + S8.size a ≤ S8.size a
  h_S8 : 0 < S8.numel
  shapeCasts_S8_S1x8 : S8.ShapeCasts S1x8
  broadcasts_S1x8_S4096x8 : S1x8.Broadcasts S4096x8
  reduces_S4096x8_S4096 : S4096x8.Reduces [1] S4096
  shapeCasts_S4096_S4096x1 : S4096.ShapeCasts S4096x1
  concatenates_S4096x8_S4096x8_S4096x1_S4096x17_d1 : Shape.Concatenates [S4096x8, S4096x8, S4096x1] S4096x17 1
  inb_S4096x17_S4096x17_0_0 : ∀ a, (![0, 0] : Fin 2 → Nat) a + S4096x17.size a ≤ S4096x17.size a
  h_S4096x17 : 0 < S4096x17.numel
  slices_S131072x17_S131072x16_0_0 : S131072x17.Slices ![0, 0] S131072x16
  slices_S131072x17_S131072x1_0_16 : S131072x17.Slices ![0, 16] S131072x1
  shapeCasts_S131072x1_S131072 : S131072x1.ShapeCasts S131072
  dot_S4096x8_S8x512_S4096x512_1_0_0_1_n_n_wf : DotDims.WF S4096x8 S8x512 S4096x512 [1] [0] [0] [1] [] []
  dot_S4096x256_S256x256_S4096x256_1_0_0_1_n_n_wf : DotDims.WF S4096x256 S256x256 S4096x256 [1] [0] [0] [1] [] []
  dot_S4096x256_S256x8_S4096x8_1_0_0_1_n_n_wf : DotDims.WF S4096x256 S256x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S131072x16.size a
  hwx0_0 : ∀ i : grid0.Coords, EltTy.bits .f32 = 32 ∨ (Rect.block (s := S131072x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .bf16 = 32 ∨ (Rect.block (s := S8x512) S8x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x8.size a ≤ S256x8.size a
  hwx0_5 : ∀ i : grid0.Coords, EltTy.bits .bf16 = 32 ∨ (Rect.block (s := S256x8) S256x8.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x8.size a ≤ S256x8.size a
  hwx0_9 : ∀ i : grid0.Coords, EltTy.bits .bf16 = 32 ∨ (Rect.block (s := S256x8) S256x8.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x512.size a ≤ S8x512.size a
  hwx0_11 : ∀ i : grid0.Coords, EltTy.bits .bf16 = 32 ∨ (Rect.block (s := S8x512) S8x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x8.size a ≤ S256x8.size a
  hwx0_15 : ∀ i : grid0.Coords, EltTy.bits .bf16 = 32 ∨ (Rect.block (s := S256x8) S256x8.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S8.size a ≤ S8.size a
  hwx0_16 : ∀ i : grid0.Coords, EltTy.bits .f32 = 32 ∨ (Rect.block (s := S8) S8.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x8.size a ≤ S256x8.size a
  hwx0_19 : ∀ i : grid0.Coords, EltTy.bits .bf16 = 32 ∨ (Rect.block (s := S256x8) S256x8.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S8.size a ≤ S8.size a
  hwx0_20 : ∀ i : grid0.Coords, EltTy.bits .f32 = 32 ∨ (Rect.block (s := S8) S8.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S4096x17.size a ≤ S131072x17.size a
  hwx0_21 : ∀ i : grid0.Coords, EltTy.bits .f32 = 32 ∨ (Rect.block (s := S131072x17) S4096x17.size (cc0_transform_21 i) (hinb0_21 i)).WholeWords (EltTy.packing .f32)

variable [Facts₀]

def dot_S4096x8_S8x512_S4096x512_1_0_0_1_n_n : DotDims S4096x8 S8x512 S4096x512 where
  lhsContracting := [1]
  rhsContracting := [0]
  lhsNonContracting := [0]
  rhsNonContracting := [1]
  lhsBatch := []
  rhsBatch := []
  wf := dot_S4096x8_S8x512_S4096x512_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x8_S4096x8_1_0_0_1_n_n : DotDims S4096x256 S256x8 S4096x8 where
  lhsContracting := [1]
  rhsContracting := [0]
  lhsNonContracting := [0]
  rhsNonContracting := [1]
  lhsBatch := []
  rhsBatch := []
  wf := dot_S4096x256_S256x8_S4096x8_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S256x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S8x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21) S256x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg22) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v23) S256x8.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg24) S8.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v24) S4096x17.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S131072x16 : Shape := ⟨2, ![131072, 16]⟩
abbrev S256x8 : Shape := ⟨2, ![256, 8]⟩
abbrev S256 : Shape := ⟨1, ![256]⟩
abbrev S256x256 : Shape := ⟨2, ![256, 256]⟩
abbrev S8x256 : Shape := ⟨2, ![8, 256]⟩
abbrev S8 : Shape := ⟨1, ![8]⟩
abbrev S131072x8 : Shape := ⟨2, ![131072, 8]⟩
abbrev S131072x256 : Shape := ⟨2, ![131072, 256]⟩
abbrev S1x256 : Shape := ⟨2, ![1, 256]⟩
abbrev S_ : Shape := ⟨0, ![]⟩
abbrev S1x8 : Shape := ⟨2, ![1, 8]⟩
abbrev S131072 : Shape := ⟨1, ![131072]⟩

abbrev nBuf : Space → Nat
  | .hbm => 131
  | .vmem => 0
  | .smem => 0
  | _ => 0

abbrev hbmTy0_0 (i : Nat) : BufTy := match i % 128 with
  | 0 => ⟨S131072x16, .f32⟩
  | 1 => ⟨S256x8, .f32⟩
  | 2 => ⟨S256, .f32⟩
  | 3 => ⟨S256x256, .f32⟩
  | 4 => ⟨S256, .f32⟩
  | 5 => ⟨S8x256, .f32⟩
  | 6 => ⟨S8, .f32⟩
  | 7 => ⟨S256x8, .f32⟩
  | 8 => ⟨S256, .f32⟩
  | 9 => ⟨S256x256, .f32⟩
  | 10 => ⟨S256, .f32⟩
  | 11 => ⟨S8x256, .f32⟩
  | 12 => ⟨S8, .f32⟩
  | 13 => ⟨S256x8, .f32⟩
  | 14 => ⟨S256, .f32⟩
  | 15 => ⟨S256x256, .f32⟩
  | 16 => ⟨S256, .f32⟩
  | 17 => ⟨S8x256, .f32⟩
  | 18 => ⟨S8, .f32⟩
  | 19 => ⟨S256x8, .f32⟩
  | 20 => ⟨S256, .f32⟩
  | 21 => ⟨S256x256, .f32⟩
  | 22 => ⟨S256, .f32⟩
  | 23 => ⟨S8x256, .f32⟩
  | 24 => ⟨S8, .f32⟩
  | 25 => ⟨S131072x8, .f32⟩
  | 26 => ⟨S131072x8, .f32⟩
  | 27 => ⟨S8x256, .f32⟩
  | 28 => ⟨S131072x256, .f32⟩
  | 29 => ⟨S1x256, .f32⟩
  | 30 => ⟨S131072x256, .f32⟩
  | 31 => ⟨S131072x256, .f32⟩
  | 32 => ⟨S_, .f32⟩
  | 33 => ⟨S131072x256, .f32⟩
  | 34 => ⟨S131072x256, .f32⟩
  | 35 => ⟨S256x256, .f32⟩
  | 36 => ⟨S131072x256, .f32⟩
  | 37 => ⟨S1x256, .f32⟩
  | 38 => ⟨S131072x256, .f32⟩
  | 39 => ⟨S131072x256, .f32⟩
  | 40 => ⟨S_, .f32⟩
  | 41 => ⟨S131072x256, .f32⟩
  | 42 => ⟨S131072x256, .f32⟩
  | 43 => ⟨S256x8, .f32⟩
  | 44 => ⟨S131072x8, .f32⟩
  | 45 => ⟨S1x8, .f32⟩
  | 46 => ⟨S131072x8, .f32⟩
  | 47 => ⟨S131072x8, .f32⟩
  | 48 => ⟨S131072x8, .f32⟩
  | 49 => ⟨S_, .f32⟩
  | 50 => ⟨S131072x8, .f32⟩
  | 51 => ⟨S131072x8, .f32⟩
  | 52 => ⟨S8x256, .f32⟩
  | 53 => ⟨S131072x256, .f32⟩
  | 54 => ⟨S1x256, .f32⟩
  | 55 => ⟨S131072x256, .f32⟩
  | 56 => ⟨S131072x256, .f32⟩
  | 57 => ⟨S_, .f32⟩
  | 58 => ⟨S131072x256, .f32⟩
  | 59 => ⟨S131072x256, .f32⟩
  | 60 => ⟨S256x256, .f32⟩
  | 61 => ⟨S131072x256, .f32⟩
  | 62 => ⟨S1x256, .f32⟩
  | 63 => ⟨S131072x256, .f32⟩
  | 64 => ⟨S131072x256, .f32⟩
  | 65 => ⟨S_, .f32⟩
  | 66 => ⟨S131072x256, .f32⟩
  | 67 => ⟨S131072x256, .f32⟩
  | 68 => ⟨S256x8, .f32⟩
  | 69 => ⟨S131072x8, .f32⟩
  | 70 => ⟨S1x8, .f32⟩
  | 71 => ⟨S131072x8, .f32⟩
  | 72 => ⟨S131072x8, .f32⟩
  | 73 => ⟨S131072x8, .f32⟩
  | 74 => ⟨S131072x8, .f32⟩
  | 75 => ⟨S131072x8, .f32⟩
  | 76 => ⟨S8x256, .f32⟩
  | 77 => ⟨S131072x256, .f32⟩
  | 78 => ⟨S1x256, .f32⟩
  | 79 => ⟨S131072x256, .f32⟩
  | 80 => ⟨S131072x256, .f32⟩
  | 81 => ⟨S_, .f32⟩
  | 82 => ⟨S131072x256, .f32⟩
  | 83 => ⟨S131072x256, .f32⟩
  | 84 => ⟨S256x256, .f32⟩
  | 85 => ⟨S131072x256, .f32⟩
  | 86 => ⟨S1x256, .f32⟩
  | 87 => ⟨S131072x256, .f32⟩
  | 88 => ⟨S131072x256, .f32⟩
  | 89 => ⟨S_, .f32⟩
  | 90 => ⟨S131072x256, .f32⟩
  | 91 => ⟨S131072x256, .f32⟩
  | 92 => ⟨S256x8, .f32⟩
  | 93 => ⟨S131072x8, .f32⟩
  | 94 => ⟨S1x8, .f32⟩
  | 95 => ⟨S131072x8, .f32⟩
  | 96 => ⟨S131072x8, .f32⟩
  | 97 => ⟨S131072x8, .f32⟩
  | 98 => ⟨S_, .f32⟩
  | 99 => ⟨S131072x8, .f32⟩
  | 100 => ⟨S131072x8, .f32⟩
  | 101 => ⟨S8x256, .f32⟩
  | 102 => ⟨S131072x256, .f32⟩
  | 103 => ⟨S1x256, .f32⟩
  | 104 => ⟨S131072x256, .f32⟩
  | 105 => ⟨S131072x256, .f32⟩
  | 106 => ⟨S_, .f32⟩
  | 107 => ⟨S131072x256, .f32⟩
  | 108 => ⟨S131072x256, .f32⟩
  | 109 => ⟨S256x256, .f32⟩
  | 110 => ⟨S131072x256, .f32⟩
  | 111 => ⟨S1x256, .f32⟩
  | 112 => ⟨S131072x256, .f32⟩
  | 113 => ⟨S131072x256, .f32⟩
  | 114 => ⟨S_, .f32⟩
  | 115 => ⟨S131072x256, .f32⟩
  | 116 => ⟨S131072x256, .f32⟩
  | 117 => ⟨S256x8, .f32⟩
  | 118 => ⟨S131072x8, .f32⟩
  | 119 => ⟨S1x8, .f32⟩
  | 120 => ⟨S131072x8, .f32⟩
  | 121 => ⟨S131072x8, .f32⟩
  | 122 => ⟨S131072x8, .f32⟩
  | 123 => ⟨S131072x8, .f32⟩
  | 124 => ⟨S131072x8, .f32⟩
  | 125 => ⟨S131072x16, .f32⟩
  | 126 => ⟨S_, .f32⟩
  | 127 => ⟨S131072, .f32⟩
  | _ => ⟨S131072x16, .f32⟩

abbrev hbmTy0_1 (i : Nat) : BufTy := match i % 128 with
  | 0 => ⟨S_, .f32⟩
  | 1 => ⟨S131072, .f32⟩
  | 2 => ⟨S131072, .f32⟩
  | _ => ⟨S131072x16, .f32⟩

abbrev hbmTy (i : Nat) : BufTy := match i / 128 with
  | 0 => hbmTy0_0 i
  | 1 => hbmTy0_1 i
  | _ => ⟨S131072x16, .f32⟩

abbrev bufTy : (tb : Table) → Fin (tcTables nBuf tb) → BufTy
  | .hbm, ⟨i, _⟩ => hbmTy i
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_call0_cst : Ref sig .tc := ⟨.hbm, 32, rfl⟩
abbrev main_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_cst : Ref sig .tc := ⟨.hbm, 40, rfl⟩
abbrev main_call1_v0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_call2_cst : Ref sig .tc := ⟨.hbm, 57, rfl⟩
abbrev main_call2_v0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call3_cst : Ref sig .tc := ⟨.hbm, 65, rfl⟩
abbrev main_call3_v0 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call4_cst : Ref sig .tc := ⟨.hbm, 81, rfl⟩
abbrev main_call4_v0 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call5_cst : Ref sig .tc := ⟨.hbm, 89, rfl⟩
abbrev main_call5_v0 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_0 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call6_cst : Ref sig .tc := ⟨.hbm, 106, rfl⟩
abbrev main_call6_v0 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call7_cst : Ref sig .tc := ⟨.hbm, 114, rfl⟩
abbrev main_call7_v0 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_1 : Ref sig .tc := ⟨.hbm, 126, rfl⟩
abbrev main_v83 : Ref sig .tc := ⟨.hbm, 127, rfl⟩
abbrev main_cst_2 : Ref sig .tc := ⟨.hbm, 128, rfl⟩
abbrev main_v84 : Ref sig .tc := ⟨.hbm, 129, rfl⟩
abbrev main_v85 : Ref sig .tc := ⟨.hbm, 130, rfl⟩

abbrev nD : Nat := 1
abbrev τ : Topo := Topo.v7x

variable {F : FTy → Type} [FloatOps F]

class Facts₀ : Prop where
  slices_S131072x16_S131072x8_0_0 : S131072x16.Slices ![0, 0] S131072x8
  slices_S131072x16_S131072x8_0_8 : S131072x16.Slices ![0, 8] S131072x8
  transposes_S256x8_S8x256_1_0 : S256x8.Transposes [1, 0] S8x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  transposes_S256x256_S256x256_1_0 : S256x256.Transposes [1, 0] S256x256
  transposes_S8x256_S256x8_1_0 : S8x256.Transposes [1, 0] S256x8
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S_S131072x8 : S_.BroadcastsInDim S131072x8 (![] : Fin 0 → Fin S131072x8.rank)
  concatenates_S131072x8_S131072x8_S131072x16_d1 : Shape.Concatenates [S131072x8, S131072x8] S131072x16 1
  reducesTo_S131072x8_S131072_d1 : S131072x8.ReducesTo [1] S131072
  h_S_ : 0 < S_.numel
  dot_S131072x8_S8x256_S131072x256_1_0_0_1_n_n_wf : DotDims.WF S131072x8 S8x256 S131072x256 [1] [0] [0] [1] [] []
  dot_S131072x256_S256x256_S131072x256_1_0_0_1_n_n_wf : DotDims.WF S131072x256 S256x256 S131072x256 [1] [0] [0] [1] [] []
  dot_S131072x256_S256x8_S131072x8_1_0_0_1_n_n_wf : DotDims.WF S131072x256 S256x8 S131072x8 [1] [0] [0] [1] [] []

variable [Facts₀]

def dot_S131072x8_S8x256_S131072x256_1_0_0_1_n_n : DotDims S131072x8 S8x256 S131072x256 where
  lhsContracting := [1]
  rhsContracting := [0]
  lhsNonContracting := [0]
  rhsNonContracting := [1]
  lhsBatch := []
  rhsBatch := []
  wf := dot_S131072x8_S8x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x8_S131072x8_1_0_0_1_n_n : DotDims S131072x256 S256x8 S131072x8 where
  lhsContracting := [1]
  rhsContracting := [0]
  lhsNonContracting := [0]
  rhsNonContracting := [1]
  lhsBatch := []
  rhsBatch := []
  wf := dot_S131072x256_S256x8_S131072x8_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«179023_j33071248180133_2_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.Coupling.lean ====
/-
  An affine coupling layer, one row at a time.

  A row x of sixteen numbers is split in halves x₁ = x[0..8) and x₂ = x[8..16). Four small perceptrons
  (dense 8→256, rectifier, dense 256→256, rectifier, dense 256→8) give, from x₂, a log-scale s = tanh(·)·limit
  and a shift t, and the first half becomes y₁ = x₁·exp s + t; the same again from y₁ gives s', t' and
  y₂ = x₂·exp s' + t'. The layer returns the row (y₁, y₂) and the log-determinant ∑ s + ∑ s'.

  Everything is stated on the extended reals, entry by entry, over the row functions dense / relu / join.
  A perceptron's first layer may also be given as a window of columns of a wider merged layer (two perceptrons
  that read the same input share one product): the window of a dense layer is the dense layer of the window
  (Net.ofMerged), by unfolding.
-/
import proofs.«179023_j33071248180133_2_alg».proof.Proof.LibRowLayers

noncomputable section

namespace Cert.Coupling

open Idealize.ShloMosaic Idealize.ShloMosaic.ValueIdx Cert.RowLayers

/-- The rectifier's threshold, as the word both programs print (it denotes 0). -/
def zeroW : EReal := Ideal.ofBits .f32 0x00000000#32
/-- The scale limit, as the word both programs print (it denotes 1). -/
def oneW : EReal := Ideal.ofBits .f32 0x3F800000#32

/-- The weights of one perceptron 8 → 256 → 256 → 8, each matrix laid out (input, output). -/
structure Net where
  w1 : (⟨2, ![8, 256]⟩ : Shape).Idx → EReal
  b1 : Fin 256 → EReal
  w2 : (⟨2, ![256, 256]⟩ : Shape).Idx → EReal
  b2 : Fin 256 → EReal
  w3 : (⟨2, ![256, 8]⟩ : Shape).Idx → EReal
  b3 : Fin 8 → EReal

/-- The last two layers, from the first layer's rectified output g. -/
def tail (g : Fin 256 → EReal) (w2 : (⟨2, ![256, 256]⟩ : Shape).Idx → EReal) (b2 : Fin 256 → EReal)
    (w3 : (⟨2, ![256, 8]⟩ : Shape).Idx → EReal) (b3 : Fin 8 → EReal) : Fin 8 → EReal :=
  dense (relu zeroW (dense g w2 b2)) w3 b3

/-- The perceptron on a row h. -/
def Net.apply (n : Net) (h : Fin 8 → EReal) : Fin 8 → EReal :=
  tail (relu zeroW (dense h n.w1 n.b1)) n.w2 n.b2 n.w3 n.b3

/-- A window of J columns, from column o, of a row. -/
def cols {C : ℕ} (o J : ℕ) (hJ : o + J ≤ C) (f : Fin C → EReal) : Fin J → EReal :=
  fun j => f ⟨o + j.val, Nat.lt_of_lt_of_le (Nat.add_lt_add_left j.isLt o) hJ⟩

/-- A perceptron whose first layer is the window [o, o + 256) of the columns of a merged first layer W, B of 512 outputs. -/
def Net.ofMerged (W : (⟨2, ![8, 512]⟩ : Shape).Idx → EReal) (B : Fin 512 → EReal) (o : ℕ) (ho : o + 256 ≤ 512)
    (w2 : (⟨2, ![256, 256]⟩ : Shape).Idx → EReal) (b2 : Fin 256 → EReal)
    (w3 : (⟨2, ![256, 8]⟩ : Shape).Idx → EReal) (b3 : Fin 8 → EReal) : Net where
  w1 := fun i => W (ix2 (i 0) ⟨o + (i 1).val, Nat.lt_of_lt_of_le (Nat.add_lt_add_left (i 1).isLt o) ho⟩)
  b1 := fun j => B ⟨o + j.val, Nat.lt_of_lt_of_le (Nat.add_lt_add_left j.isLt o) ho⟩
  w2 := w2
  b2 := b2
  w3 := w3
  b3 := b3

/-- The window of the merged first layer's output is the first layer of the perceptron that owns the window. -/
theorem cols_dense_merged (W : (⟨2, ![8, 512]⟩ : Shape).Idx → EReal) (B : Fin 512 → EReal) (o : ℕ) (ho : o + 256 ≤ 512)
    (w2 : (⟨2, ![256, 256]⟩ : Shape).Idx → EReal) (b2 : Fin 256 → EReal)
    (w3 : (⟨2, ![256, 8]⟩ : Shape).Idx → EReal) (b3 : Fin 8 → EReal) (h : Fin 8 → EReal) :
    cols o 256 ho (dense h W B) = dense h (Net.ofMerged W B o ho w2 b2 w3 b3).w1 (Net.ofMerged W B o ho w2 b2 w3 b3).b1 := rfl

/-- The log-scale: tanh, times the limit. -/
def scale (f : Fin 8 → EReal) : Fin 8 → EReal := fun j => Ideal.tanh (f j) * oneW
/-- The affine map x·exp s + t, entry by entry. -/
def affine (x s t : Fin 8 → EReal) : Fin 8 → EReal := fun j => x j * Ideal.exp (s j) + t j
/-- The first half of a row of sixteen. -/
def lo (xr : Fin 16 → EReal) : Fin 8 → EReal := cols 0 8 (by omega) xr
/-- The second half of a row of sixteen. -/
def hi (xr : Fin 16 → EReal) : Fin 8 → EReal := cols 8 8 (by omega) xr

/-- The four perceptrons. -/
structure Params where
  s1 : Net
  t1 : Net
  s2 : Net
  t2 : Net

variable (P : Params) (xr : Fin 16 → EReal)

/-- The first log-scale, from the second half. -/
def sFirst : Fin 8 → EReal := scale (P.s1.apply (hi xr))
/-- The first half transformed. -/
def yFirst : Fin 8 → EReal := affine (lo xr) (sFirst P xr) (P.t1.apply (hi xr))
/-- The second log-scale, from the transformed first half. -/
def sSecond : Fin 8 → EReal := scale (P.s2.apply (yFirst P xr))
/-- The second half transformed. -/
def ySecond : Fin 8 → EReal := affine (hi xr) (sSecond P xr) (P.t2.apply (yFirst P xr))
/-- The output row (y₁, y₂). -/
def yRow : Fin 16 → EReal := join (rfl : 16 = 8 + 8) (yFirst P xr) (ySecond P xr)
/-- The log-determinant of the row. -/
def logDet : EReal := (∑ j : Fin 8, sFirst P xr j) + (∑ j : Fin 8, sSecond P xr j)
/-- The row of seventeen a fused program writes: (y₁, y₂, log-determinant). -/
def outRow : Fin 17 → EReal := join (rfl : 17 = 16 + 1) (yRow P xr) (fun _ : Fin 1 => logDet P xr)

/-- The first sixteen entries of the row of seventeen are the output row. -/
theorem cols_outRow : cols 0 16 (by omega) (outRow P xr) = yRow P xr := by
  funext j
  have hj : (0 + j.val) < 16 := by have := j.isLt; omega
  show (if h : (0 + j.val) < 16 then yRow P xr ⟨0 + j.val, h⟩ else _) = _
  rw [dif_pos hj]
  exact congrArg (yRow P xr) (Fin.ext (Nat.zero_add _))

/-- Its last entry is the log-determinant. -/
theorem outRow_last : outRow P xr ⟨16, by omega⟩ = logDet P xr := by
  unfold outRow join
  exact dif_neg (Nat.lt_irrefl 16)

end Cert.Coupling

end
-- ==== Proof.HostRows.lean ====
/-
  The reference on one row.

  The reference computes the coupling layer on the whole [131072, 16] array with host operations; every one of
  them treats the rows independently. Each perceptron is three dense layers (a product with the transposed
  weight matrix plus a bias row) with rectifiers between, read here on row p as Coupling.Net.apply; the two
  affine maps, the join of the two halves and the two row sums follow, so row p of the first result is
  Coupling.yRow of row p of x, and entry p of the second is Coupling.logDet of it.
-/
import proofs.«179023_j33071248180133_2_alg».proof.Proof.Gen.ReferenceIdeal.Read
import proofs.«179023_j33071248180133_2_alg».proof.Proof.LibRowLayers
import proofs.«179023_j33071248180133_2_alg».proof.Proof.LibRowExtras
import proofs.«179023_j33071248180133_2_alg».proof.Proof.Coupling
import Idealize.ShloMosaic.Lib.ValueLayout

noncomputable section

namespace Cert.ReferenceIdeal.Rows

open Idealize.ShloMosaic Idealize.ShloMosaic.ValueIdx Cert.ReferenceIdeal Cert.ReferenceIdeal.Gen Cert.ReferenceIdeal.Read Cert.RowLayers Cert.Coupling

/-! ## The three products' dimension numbers say "rows times columns" -/

theorem rtc_first : RowsTimesCols dot_S131072x8_S8x256_S131072x256_1_0_0_1_n_n :=
  ⟨rfl, rfl, lhs_main_v3_0, lhs_main_v3_1, rhs_main_v3_0, rhs_main_v3_1⟩
theorem rtc_mid : RowsTimesCols dot_S131072x256_S256x256_S131072x256_1_0_0_1_n_n :=
  ⟨rfl, rfl, lhs_main_v9_0, lhs_main_v9_1, rhs_main_v9_0, rhs_main_v9_1⟩
theorem rtc_last : RowsTimesCols dot_S131072x256_S256x8_S131072x8_1_0_0_1_n_n :=
  ⟨rfl, rfl, lhs_main_v15_0, lhs_main_v15_1, rhs_main_v15_0, rhs_main_v15_1⟩

/-- A perceptron from its six parameter arrays as the reference receives them: each matrix (output, input), transposed. -/
def refNet (wa : FVec Ideal S256x8 .f32) (wb : FVec Ideal S256 .f32) (wc : FVec Ideal S256x256 .f32) (wd : FVec Ideal S256 .f32) (we : FVec Ideal S8x256 .f32) (wf : FVec Ideal S8 .f32) : Net where
  w1 := transpose S8x256 [1, 0] wa transposes_S256x8_S8x256_1_0
  b1 := vec wb
  w2 := transpose S256x256 [1, 0] wc transposes_S256x256_S256x256_1_0
  b2 := vec wd
  w3 := transpose S256x8 [1, 0] we transposes_S8x256_S256x8_1_0
  b3 := vec wf

variable (p : Fin 131072)

/-- The three dense layers with rectifiers between, as the host prints them, on a row. -/
theorem mlp_row (h : FVec Ideal S131072x8 .f32) (wa : FVec Ideal S256x8 .f32) (wb : FVec Ideal S256 .f32) (wc : FVec Ideal S256x256 .f32) (wd : FVec Ideal S256 .f32) (we : FVec Ideal S8x256 .f32) (wf : FVec Ideal S8 .f32) :
    rowOf (addf (Host.dotGeneral dot_S131072x256_S256x8_S131072x8_1_0_0_1_n_n none
        (maximumf (addf (Host.dotGeneral dot_S131072x256_S256x256_S131072x256_1_0_0_1_n_n none
            (maximumf (addf (Host.dotGeneral dot_S131072x8_S8x256_S131072x256_1_0_0_1_n_n none h
                  (transpose S8x256 [1, 0] wa transposes_S256x8_S8x256_1_0))
                (broadcastInDim S131072x256 ![0, 1] bcast_S1x256_S131072x256_0_1 (broadcastInDim S1x256 ![1] bcast_S256_S1x256_1 wb)))
              (broadcastInDim S131072x256 ![] bcast_S_S131072x256 (constant (F := Ideal) S_ .f32 0x00000000#32)))
            (transpose S256x256 [1, 0] wc transposes_S256x256_S256x256_1_0))
          (broadcastInDim S131072x256 ![0, 1] bcast_S1x256_S131072x256_0_1 (broadcastInDim S1x256 ![1] bcast_S256_S1x256_1 wd)))
          (broadcastInDim S131072x256 ![] bcast_S_S131072x256 (constant (F := Ideal) S_ .f32 0x00000000#32)))
        (transpose S256x8 [1, 0] we transposes_S8x256_S256x8_1_0))
      (broadcastInDim S131072x8 ![0, 1] bcast_S1x8_S131072x8_0_1 (broadcastInDim S1x8 ![1] bcast_S8_S1x8_1 wf))) p
      = (refNet wa wb wc wd we wf).apply (rowOf h p) := by
  simp only [rowOf_dense_host rtc_last, rowOf_dense_host rtc_mid, rowOf_dense_host rtc_first, rowOf_maximumf_const]
  rfl

variable (x0 : (⟨S131072x16, .f32⟩ : BufTy).Contents (Elt Ideal)) (x1 : (⟨S256x8, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S8x256, .f32⟩ : BufTy).Contents (Elt Ideal)) (x6 : (⟨S8, .f32⟩ : BufTy).Contents (Elt Ideal)) (x7 : (⟨S256x8, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S8x256, .f32⟩ : BufTy).Contents (Elt Ideal)) (x12 : (⟨S8, .f32⟩ : BufTy).Contents (Elt Ideal)) (x13 : (⟨S256x8, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 : (⟨S8x256, .f32⟩ : BufTy).Contents (Elt Ideal)) (x18 : (⟨S8, .f32⟩ : BufTy).Contents (Elt Ideal)) (x19 : (⟨S256x8, .f32⟩ : BufTy).Contents (Elt Ideal)) (x20 : (⟨S256, .f32⟩ : BufTy).Contents (Elt Ideal)) (x21 : (⟨S256x256, .f32⟩ : BufTy).Contents (Elt Ideal)) (x22 : (⟨S256, .f32⟩ : BufTy).Contents (Elt Ideal)) (x23 : (⟨S8x256, .f32⟩ : BufTy).Contents (Elt Ideal)) (x24 : (⟨S8, .f32⟩ : BufTy).Contents (Elt Ideal))

/-- The four perceptrons of the reference's parameters. -/
def refParams : Params where
  s1 := refNet x1 x2 x3 x4 x5 x6
  t1 := refNet x7 x8 x9 x10 x11 x12
  s2 := refNet x13 x14 x15 x16 x17 x18
  t2 := refNet x19 x20 x21 x22 x23 x24

theorem half_lo : rowOf (val_main_v0 (F := Ideal) x0) p = lo (rowOf x0 p) :=
  rowOf_slice_cols 0 x0 slices_S131072x16_S131072x8_0_0 p

theorem half_hi : rowOf (val_main_v1 (F := Ideal) x0) p = hi (rowOf x0 p) :=
  rowOf_slice_cols 8 x0 slices_S131072x16_S131072x8_0_8 p

/-- The first log-scale. -/
theorem s_first : rowOf (val_main_v21 (F := Ideal) x0 x1 x2 x3 x4 x5 x6) p = sFirst (refParams x1 x2 x3 x4 x5 x6 x7 x8 x9 x10 x11 x12 x13 x14 x15 x16 x17 x18 x19 x20 x21 x22 x23 x24) (rowOf x0 p) := by
  show scale (rowOf (val_main_v18 (F := Ideal) x0 x1 x2 x3 x4 x5 x6) p) = _
  rw [show rowOf (val_main_v18 (F := Ideal) x0 x1 x2 x3 x4 x5 x6) p = (refNet x1 x2 x3 x4 x5 x6).apply (rowOf (val_main_v1 (F := Ideal) x0) p) from
    mlp_row p (val_main_v1 (F := Ideal) x0) x1 x2 x3 x4 x5 x6, half_hi]
  rfl

/-- The first half transformed. -/
theorem y_first : rowOf (val_main_v41 (F := Ideal) x0 x1 x2 x3 x4 x5 x6 x7 x8 x9 x10 x11 x12) p = yFirst (refParams x1 x2 x3 x4 x5 x6 x7 x8 x9 x10 x11 x12 x13 x14 x15 x16 x17 x18 x19 x20 x21 x22 x23 x24) (rowOf x0 p) := by
  show affine (rowOf (val_main_v0 (F := Ideal) x0) p) (rowOf (val_main_v21 (F := Ideal) x0 x1 x2 x3 x4 x5 x6) p)
    (rowOf (val_main_v38 (F := Ideal) x0 x7 x8 x9 x10 x11 x12) p) = _
  rw [show rowOf (val_main_v38 (F := Ideal) x0 x7 x8 x9 x10 x11 x12) p = (refNet x7 x8 x9 x10 x11 x12).apply (rowOf (val_main_v1 (F := Ideal) x0) p) from
    mlp_row p (val_main_v1 (F := Ideal) x0) x7 x8 x9 x10 x11 x12, half_hi, half_lo, s_first p x0 x1 x2 x3 x4 x5 x6 x7 x8 x9 x10 x11 x12 x13 x14 x15 x16 x17 x18 x19 x20 x21 x22 x23 x24]
  rfl

/-- The second log-scale. -/
theorem s_second : rowOf (val_main_v61 (F := Ideal) x0 x1 x2 x3 x4 x5 x6 x7 x8 x9 x10 x11 x12 x13 x14 x15 x16 x17 x18) p = sSecond (refParams x1 x2 x3 x4 x5 x6 x7 x8 x9 x10 x11 x12 x13 x14 x15 x16 x17 x18 x19 x20 x21 x22 x23 x24) (rowOf x0 p) := by
  show scale (rowOf (val_main_v58 (F := Ideal) x0 x1 x2 x3 x4 x5 x6 x7 x8 x9 x10 x11 x12 x13 x14 x15 x16 x17 x18) p) = _
  rw [show rowOf (val_main_v58 (F := Ideal) x0 x1 x2 x3 x4 x5 x6 x7 x8 x9 x10 x11 x12 x13 x14 x15 x16 x17 x18) p = (refNet x13 x14 x15 x16 x17 x18).apply (rowOf (val_main_v41 (F := Ideal) x0 x1 x2 x3 x4 x5 x6 x7 x8 x9 x10 x11 x12) p) from
    mlp_row p (val_main_v41 (F := Ideal) x0 x1 x2 x3 x4 x5 x6 x7 x8 x9 x10 x11 x12) x13 x14 x15 x16 x17 x18, y_first p x0 x1 x2 x3 x4 x5 x6 x7 x8 x9 x10 x11 x12 x13 x14 x15 x16 x17 x18 x19 x20 x21 x22 x23 x24]
  rfl

/-- The second half transformed. -/
theorem y_second : rowOf (val_main_v81 (F := Ideal) x0 x1 x2 x3 x4 x5 x6 x7 x8 x9 x10 x11 x12 x13 x14 x15 x16 x17 x18 x19 x20 x21 x22 x23 x24) p = ySecond (refParams x1 x2 x3 x4 x5 x6 x7 x8 x9 x10 x11 x12 x13 x14 x15 x16 x17 x18 x19 x20 x21 x22 x23 x24) (rowOf x0 p) := by
  show affine (rowOf (val_main_v1 (F := Ideal) x0) p) (rowOf (val_main_v61 (F := Ideal) x0 x1 x2 x3 x4 x5 x6 x7 x8 x9 x10 x11 x12 x13 x14 x15 x16 x17 x18) p)
    (rowOf (val_main_v78 (F := Ideal) x0 x1 x2 x3 x4 x5 x6 x7 x8 x9 x10 x11 x12 x19 x20 x21 x22 x23 x24) p) = _
  rw [show rowOf (val_main_v78 (F := Ideal) x0 x1 x2 x3 x4 x5 x6 x7 x8 x9 x10 x11 x12 x19 x20 x21 x22 x23 x24) p = (refNet x19 x20 x21 x22 x23 x24).apply (rowOf (val_main_v41 (F := Ideal) x0 x1 x2 x3 x4 x5 x6 x7 x8 x9 x10 x11 x12) p) from
    mlp_row p (val_main_v41 (F := Ideal) x0 x1 x2 x3 x4 x5 x6 x7 x8 x9 x10 x11 x12) x19 x20 x21 x22 x23 x24, y_first p x0 x1 x2 x3 x4 x5 x6 x7 x8 x9 x10 x11 x12 x13 x14 x15 x16 x17 x18 x19 x20 x21 x22 x23 x24, half_hi, s_second p x0 x1 x2 x3 x4 x5 x6 x7 x8 x9 x10 x11 x12 x13 x14 x15 x16 x17 x18 x19 x20 x21 x22 x23 x24]
  rfl

/-- Row p of the reference's first result. -/
theorem y_row : rowOf (val_main_v82 (F := Ideal) x0 x1 x2 x3 x4 x5 x6 x7 x8 x9 x10 x11 x12 x13 x14 x15 x16 x17 x18 x19 x20 x21 x22 x23 x24) p = yRow (refParams x1 x2 x3 x4 x5 x6 x7 x8 x9 x10 x11 x12 x13 x14 x15 x16 x17 x18 x19 x20 x21 x22 x23 x24) (rowOf x0 p) := by
  unfold val_main_v82
  rw [rowOf_concat_cols _ _ concatenates_S131072x8_S131072x8_S131072x16_d1 (rfl : 16 = 8 + 8) p, y_first p x0 x1 x2 x3 x4 x5 x6 x7 x8 x9 x10 x11 x12 x13 x14 x15 x16 x17 x18 x19 x20 x21 x22 x23 x24, y_second]
  rfl

/-- Entry p of the reference's second result. -/
theorem log_det : val_main_v85 (F := Ideal) x0 x1 x2 x3 x4 x5 x6 x7 x8 x9 x10 x11 x12 x13 x14 x15 x16 x17 x18 (ix1 p) = logDet (refParams x1 x2 x3 x4 x5 x6 x7 x8 x9 x10 x11 x12 x13 x14 x15 x16 x17 x18 x19 x20 x21 x22 x23 x24) (rowOf x0 p) := by
  rw [val_main_v85_apply, val_main_v83_apply, val_main_v84_apply]
  have e1 : ∀ k : Fin 8, idx_main_v83 (ix1 p) k = ix2 p k := fun k => funext fun a => Fin.ext (by
    match a with
    | ⟨0, _⟩ => rfl
    | ⟨1, _⟩ => rfl)
  have e2 : ∀ k : Fin 8, idx_main_v84 (ix1 p) k = ix2 p k := fun k => funext fun a => Fin.ext (by
    match a with
    | ⟨0, _⟩ => rfl
    | ⟨1, _⟩ => rfl)
  simp only [e1, e2]
  show (Ideal.ofBits .f32 0x00000000#32 + ∑ k : Fin 8, rowOf (val_main_v21 (F := Ideal) x0 x1 x2 x3 x4 x5 x6) p k)
    + (Ideal.ofBits .f32 0x00000000#32 + ∑ k : Fin 8, rowOf (val_main_v61 (F := Ideal) x0 x1 x2 x3 x4 x5 x6 x7 x8 x9 x10 x11 x12 x13 x14 x15 x16 x17 x18) p k) = _
  rw [Ideal.ofBits_zero_f32, zero_add, zero_add, s_first p x0 x1 x2 x3 x4 x5 x6 x7 x8 x9 x10 x11 x12 x13 x14 x15 x16 x17 x18 x19 x20 x21 x22 x23 x24, s_second p x0 x1 x2 x3 x4 x5 x6 x7 x8 x9 x10 x11 x12 x13 x14 x15 x16 x17 x18 x19 x20 x21 x22 x23 x24]
  rfl

/-! ## The two results as whole-array functions -/

/-- The layer's first result: index (r, k) holds entry k of the output row of row r of X. -/
def yArray (X : FVec Ideal S131072x16 .f32) (P : Params) : FVec Ideal S131072x16 .f32 := fun i => yRow P (rowOf X (i 0)) (i 1)

/-- The layer's second result: entry r is the log-determinant of row r of X. -/
def logDetArray (X : FVec Ideal S131072x16 .f32) (P : Params) : FVec Ideal S131072 .f32 := fun i => logDet P (rowOf X (i 0))

theorem result_y : val_main_v82 (F := Ideal) x0 x1 x2 x3 x4 x5 x6 x7 x8 x9 x10 x11 x12 x13 x14 x15 x16 x17 x18 x19 x20 x21 x22 x23 x24 = yArray x0 (refParams x1 x2 x3 x4 x5 x6 x7 x8 x9 x10 x11 x12 x13 x14 x15 x16 x17 x18 x19 x20 x21 x22 x23 x24) :=
  funext fun i => (apply_eq_rowOf _ i).trans (congrFun (y_row (i 0) x0 x1 x2 x3 x4 x5 x6 x7 x8 x9 x10 x11 x12 x13 x14 x15 x16 x17 x18 x19 x20 x21 x22 x23 x24) (i 1))

theorem result_logDet : val_main_v85 (F := Ideal) x0 x1 x2 x3 x4 x5 x6 x7 x8 x9 x10 x11 x12 x13 x14 x15 x16 x17 x18 = logDetArray x0 (refParams x1 x2 x3 x4 x5 x6 x7 x8 x9 x10 x11 x12 x13 x14 x15 x16 x17 x18 x19 x20 x21 x22 x23 x24) :=
  funext fun i => (congrArg (val_main_v85 (F := Ideal) x0 x1 x2 x3 x4 x5 x6 x7 x8 x9 x10 x11 x12 x13 x14 x15 x16 x17 x18) (eq_ix1 i)).trans (log_det (i 0) x0 x1 x2 x3 x4 x5 x6 x7 x8 x9 x10 x11 x12 x13 x14 x15 x16 x17 x18 x19 x20 x21 x22 x23 x24)

end Cert.ReferenceIdeal.Rows

end
-- ==== Proof.DeviceRows.lean ====
/-
  The kernel's body on one row of its block.

  The body's arithmetic is a composition of eleven pure pieces (the generated payloads). Each piece acts on the
  4096 rows of a block independently, so each is read here on ONE row p, as a row function of the rows of its
  operands: the two halves of the input row, the merged first layer (a dense layer of 512 outputs), the windows
  [0, 256) and [256, 512) of its output rectified, the two remaining layers of each perceptron, tanh·limit, the
  affine map x·exp s + t, the two lane sums, and the three-way join of the output row. Composed, row p of the
  block the body writes is Coupling.outRow of row p of the input block, with each perceptron's first layer a
  window of the merged one.
-/
import proofs.«179023_j33071248180133_2_alg».proof.Proof.Gen.KernelIdeal.Skeleton
import proofs.«179023_j33071248180133_2_alg».proof.Proof.LibRowLayers
import proofs.«179023_j33071248180133_2_alg».proof.Proof.LibRowExtras
import proofs.«179023_j33071248180133_2_alg».proof.Proof.Coupling

noncomputable section

namespace Cert.KernelIdeal.Rows

open Idealize.ShloMosaic Idealize.ShloMosaic.ValueIdx Cert.KernelIdeal Cert.KernelIdeal.Gen Cert.RowLayers Cert.Coupling

/-! ## The three products' dimension numbers say "rows times columns" -/

theorem rtc_first : RowsTimesCols dot_S4096x8_S8x512_S4096x512_1_0_0_1_n_n where
  rank := rfl
  size := rfl
  lhs0 := fun j q => by
    unfold DotDims.lhsIdx
    rw [dif_neg (show ¬(0 : Fin S4096x8.rank) ∈ dot_S4096x8_S8x512_S4096x512_1_0_0_1_n_n.lhsBatch by decide),
      dif_pos (show (0 : Fin S4096x8.rank) ∈ dot_S4096x8_S8x512_S4096x512_1_0_0_1_n_n.lhsNonContracting by decide)]
    rfl
  lhs1 := fun j q => dot_S4096x8_S8x512_S4096x512_1_0_0_1_n_n.lhsIdx_val_of_single rfl j q
  rhs0 := fun j q => dot_S4096x8_S8x512_S4096x512_1_0_0_1_n_n.rhsIdx_val_of_single rfl j q
  rhs1 := fun j q => by
    unfold DotDims.rhsIdx
    rw [dif_neg (show ¬(1 : Fin S8x512.rank) ∈ dot_S4096x8_S8x512_S4096x512_1_0_0_1_n_n.rhsBatch by decide),
      dif_pos (show (1 : Fin S8x512.rank) ∈ dot_S4096x8_S8x512_S4096x512_1_0_0_1_n_n.rhsNonContracting by decide)]
    rfl

theorem rtc_mid : RowsTimesCols dot_S4096x256_S256x256_S4096x256_1_0_0_1_n_n where
  rank := rfl
  size := rfl
  lhs0 := fun j q => by
    unfold DotDims.lhsIdx
    rw [dif_neg (show ¬(0 : Fin S4096x256.rank) ∈ dot_S4096x256_S256x256_S4096x256_1_0_0_1_n_n.lhsBatch by decide),
      dif_pos (show (0 : Fin S4096x256.rank) ∈ dot_S4096x256_S256x256_S4096x256_1_0_0_1_n_n.lhsNonContracting by decide)]
    rfl
  lhs1 := fun j q => dot_S4096x256_S256x256_S4096x256_1_0_0_1_n_n.lhsIdx_val_of_single rfl j q
  rhs0 := fun j q => dot_S4096x256_S256x256_S4096x256_1_0_0_1_n_n.rhsIdx_val_of_single rfl j q
  rhs1 := fun j q => by
    unfold DotDims.rhsIdx
    rw [dif_neg (show ¬(1 : Fin S256x256.rank) ∈ dot_S4096x256_S256x256_S4096x256_1_0_0_1_n_n.rhsBatch by decide),
      dif_pos (show (1 : Fin S256x256.rank) ∈ dot_S4096x256_S256x256_S4096x256_1_0_0_1_n_n.rhsNonContracting by decide)]
    rfl

theorem rtc_last : RowsTimesCols dot_S4096x256_S256x8_S4096x8_1_0_0_1_n_n where
  rank := rfl
  size := rfl
  lhs0 := fun j q => by
    unfold DotDims.lhsIdx
    rw [dif_neg (show ¬(0 : Fin S4096x256.rank) ∈ dot_S4096x256_S256x8_S4096x8_1_0_0_1_n_n.lhsBatch by decide),
      dif_pos (show (0 : Fin S4096x256.rank) ∈ dot_S4096x256_S256x8_S4096x8_1_0_0_1_n_n.lhsNonContracting by decide)]
    rfl
  lhs1 := fun j q => dot_S4096x256_S256x8_S4096x8_1_0_0_1_n_n.lhsIdx_val_of_single rfl j q
  rhs0 := fun j q => dot_S4096x256_S256x8_S4096x8_1_0_0_1_n_n.rhsIdx_val_of_single rfl j q
  rhs1 := fun j q => by
    unfold DotDims.rhsIdx
    rw [dif_neg (show ¬(1 : Fin S256x8.rank) ∈ dot_S4096x256_S256x8_S4096x8_1_0_0_1_n_n.rhsBatch by decide),
      dif_pos (show (1 : Fin S256x8.rank) ∈ dot_S4096x256_S256x8_S4096x8_1_0_0_1_n_n.rhsNonContracting by decide)]
    rfl

/-! ## The pieces, each on one row -/

variable (p : Fin 4096)

/-- The first half of the input row. -/
theorem half_lo (v0 : Vec Ideal S4096x16 .f32) : rowOf (k0_pay1 (F := Ideal) v0) p = lo (rowOf v0 p) :=
  rowOf_slice_cols 0 v0 slices_S4096x16_o0_0_S4096x8 p

/-- The second half of the input row. -/
theorem half_hi (v0 : Vec Ideal S4096x16 .f32) : rowOf (k0_pay2 (F := Ideal) v0) p = hi (rowOf v0 p) :=
  rowOf_slice_cols 8 v0 slices_S4096x16_o0_8_S4096x8 p

/-- The merged first layer of the first coupling: a dense layer of 512 outputs of the second half. -/
theorem merged_first (v0 : Vec Ideal S4096x16 .f32) (v4 : Vec Ideal S8x512 .bf16) (v7 : Vec Ideal S512 .f32) :
    rowOf (k0_pay3 (F := Ideal) v0 v4 v7) p = dense (hi (rowOf v0 p)) v4 (vec v7) := by
  unfold k0_pay3
  rw [rowOf_dense_device rtc_first, rowOf_truncf, half_hi, shapeCast_self, rowOf_shapeCast_lead, shapeCast_self]

/-- tanh times the splat limit, on a row. -/
theorem row_scale (u : FVec Ideal S4096x8 .f32) :
    rowOf (mulf (tanh u) (broadcast S4096x8 (Scalar.ofBits (F := Ideal) .f32 0x3F800000#32))) p = scale (rowOf u p) := rfl

/-- x·exp s + t, on a row. -/
theorem row_affine (x s t : FVec Ideal S4096x8 .f32) :
    rowOf (addf (mulf x (exp s)) t) p = affine (rowOf x p) (rowOf s p) (rowOf t p) := rfl

/-- The rectifier of a sum of two arrays, on a row. -/
theorem row_relu_sum (x y : FVec Ideal S4096x256 .f32) :
    rowOf (maximumf (addf x y) (broadcast S4096x256 (Scalar.ofBits (F := Ideal) .f32 0x00000000#32))) p
      = relu zeroW (fun j => rowOf x p j + rowOf y p j) := rfl

/-- A vector [4096] viewed as a column [4096, 1]: row p is its entry p. -/
theorem row_unit_trail (v : FVec Ideal S4096 .f32) :
    rowOf (shapeCast S4096x1 v shapeCasts_S4096_S4096x1) p = fun _ => v (ix1 p) := by
  funext c
  show shapeCast S4096x1 v shapeCasts_S4096_S4096x1 (ix2 p c) = v (ix1 p)
  refine shapeCast_apply v _ _ _ ?_
  rw [Shape.rowMajor_val_two, Shape.rowMajor_val_one]
  show p.val = p.val * 1 + c.val
  have := c.isLt
  omega

/-- The lane sum of a [4096, 8] array at p is the sum of row p. -/
theorem lane_sum (v : FVec Ideal S4096x8 .f32) :
    multiReduction .add [1] S4096 v 0x00000000#32 reduces_S4096x8_S4096 (.inl rfl) rfl (ix1 p) = ∑ k : Fin 8, rowOf v p k := by
  refine (Ideal.multiReduction_add_single v 0x00000000#32 reduces_S4096x8_S4096 (.inl rfl) rfl (ix1 p)).trans ?_
  exact Finset.sum_congr rfl fun k _ => congrArg v (funext fun a => Fin.ext (by
    match a with
    | ⟨0, _⟩ => rfl
    | ⟨1, _⟩ => rfl))

/-- The first log-scale: the window [0, 256) of the merged layer, rectified, through two more layers, tanh, times the limit. -/
theorem scale_first (v0 : Vec Ideal S4096x16 .f32) (v4 : Vec Ideal S8x512 .bf16) (v7 : Vec Ideal S512 .f32)
    (v19 : Vec Ideal S256x256 .bf16) (v22 : Vec Ideal S256 .f32) (v29 : Vec Ideal S256x8 .bf16) (v32 : Vec Ideal S8 .f32) :
    rowOf (k0_pay4 (F := Ideal) v0 v4 v7 v19 v22 v29 v32) p
      = scale (tail (relu zeroW (cols 0 256 (by omega) (dense (hi (rowOf v0 p)) v4 (vec v7)))) v19 (vec v22) v29 (vec v32)) := by
  unfold k0_pay4
  rw [row_scale]
  simp only [rowOf_dense_device rtc_last, rowOf_dense_device rtc_mid, rowOf_truncf, rowOf_maximumf_splat, rowOf_slice_cols,
    merged_first, shapeCast_self, rowOf_shapeCast_lead]
  rfl

/-- The window [256, 512) of the merged layer, rectified. -/
theorem shift_first_hidden (v0 : Vec Ideal S4096x16 .f32) (v4 : Vec Ideal S8x512 .bf16) (v7 : Vec Ideal S512 .f32) :
    rowOf (k0_pay5 (F := Ideal) v0 v4 v7) p = relu zeroW (cols 256 256 (by omega) (dense (hi (rowOf v0 p)) v4 (vec v7))) := by
  unfold k0_pay5
  simp only [rowOf_truncf, rowOf_maximumf_splat, rowOf_slice_cols, merged_first]
  rfl

/-- The first half transformed: x₁·exp s + t, t the last two layers of the shift perceptron. -/
theorem first_out (v1 v38 : FVec Ideal S4096x8 .f32) (v39 : FVec Ideal S4096x256 .bf16) (v40 : Vec Ideal S256x256 .bf16)
    (v43 : Vec Ideal S256 .f32) (v50 : Vec Ideal S256x8 .bf16) (v53 : Vec Ideal S8 .f32) :
    rowOf (k0_pay6 (F := Ideal) v1 v38 v39 v40 v43 v50 v53) p
      = affine (rowOf v1 p) (rowOf v38 p) (tail (rowOf v39 p) v40 (vec v43) v50 (vec v53)) := by
  unfold k0_pay6
  rw [row_affine]
  simp only [rowOf_dense_device rtc_last, rowOf_dense_device rtc_mid, rowOf_truncf, rowOf_maximumf_splat, shapeCast_self,
    rowOf_shapeCast_lead]
  rfl

/-- The merged first layer of the second coupling, of the transformed first half. -/
theorem merged_second (v1 v38 : FVec Ideal S4096x8 .f32) (v39 : FVec Ideal S4096x256 .bf16) (v40 : Vec Ideal S256x256 .bf16)
    (v43 : Vec Ideal S256 .f32) (v50 : Vec Ideal S256x8 .bf16) (v53 : Vec Ideal S8 .f32) (v61 : Vec Ideal S8x512 .bf16) (v64 : Vec Ideal S512 .f32) :
    rowOf (k0_pay7 (F := Ideal) v1 v38 v39 v40 v43 v50 v53 v61 v64) p
      = dense (affine (rowOf v1 p) (rowOf v38 p) (tail (rowOf v39 p) v40 (vec v43) v50 (vec v53))) v61 (vec v64) := by
  unfold k0_pay7
  rw [rowOf_dense_device rtc_first, rowOf_truncf, first_out, shapeCast_self, rowOf_shapeCast_lead, shapeCast_self]

/-- Its window [256, 512), rectified. -/
theorem shift_second_hidden (v1 v38 : FVec Ideal S4096x8 .f32) (v39 : FVec Ideal S4096x256 .bf16) (v40 : Vec Ideal S256x256 .bf16)
    (v43 : Vec Ideal S256 .f32) (v50 : Vec Ideal S256x8 .bf16) (v53 : Vec Ideal S8 .f32) (v61 : Vec Ideal S8x512 .bf16) (v64 : Vec Ideal S512 .f32) :
    rowOf (k0_pay8 (F := Ideal) v1 v38 v39 v40 v43 v50 v53 v61 v64) p
      = relu zeroW (cols 256 256 (by omega)
          (dense (affine (rowOf v1 p) (rowOf v38 p) (tail (rowOf v39 p) v40 (vec v43) v50 (vec v53))) v61 (vec v64))) := by
  unfold k0_pay8
  simp only [rowOf_maximumf_splat, rowOf_slice_cols, merged_second]
  rfl

/-- Its window [0, 256), rectified, times the second layer's matrix (the bias is added by the next piece). -/
theorem scale_second_product (v1 v38 : FVec Ideal S4096x8 .f32) (v39 : FVec Ideal S4096x256 .bf16) (v40 : Vec Ideal S256x256 .bf16)
    (v43 : Vec Ideal S256 .f32) (v50 : Vec Ideal S256x8 .bf16) (v53 : Vec Ideal S8 .f32) (v61 : Vec Ideal S8x512 .bf16) (v64 : Vec Ideal S512 .f32)
    (v76 : Vec Ideal S256x256 .bf16) :
    rowOf (k0_pay9 (F := Ideal) v1 v38 v39 v40 v43 v50 v53 v61 v64 v76) p
      = fun j => ∑ k : Fin 256, relu zeroW (cols 0 256 (by omega)
          (dense (affine (rowOf v1 p) (rowOf v38 p) (tail (rowOf v39 p) v40 (vec v43) v50 (vec v53))) v61 (vec v64))) k * v76 (ix2 k j) := by
  unfold k0_pay9
  rw [rowOf_matmul_zero rtc_mid]
  simp only [rowOf_truncf, rowOf_maximumf_splat, rowOf_slice_cols, merged_second, shapeCast_self]
  rfl

/-- A bias vector broadcast down the rows. -/
theorem bias_rows (v79 : Vec Ideal S256 .f32) : rowOf (k0_pay10 (F := Ideal) v79) p = vec v79 := by
  unfold k0_pay10
  rw [rowOf_broadcastTo, rowOf_shapeCast_lead]

/-- The last piece: the second log-scale s' (its second layer's product and bias given), the second half transformed,
    the two lane sums, and the three-way join: row p of the block written is (y₁, x₂·exp s' + t', ∑ s + ∑ s'). -/
theorem out_join (v2 v38 v59 : FVec Ideal S4096x8 .f32) (v74 v78 v81 : FVec Ideal S4096x256 .f32) (v86 : Vec Ideal S256x8 .bf16)
    (v89 : Vec Ideal S8 .f32) (v97 : Vec Ideal S256x256 .bf16) (v100 : Vec Ideal S256 .f32) (v107 : Vec Ideal S256x8 .bf16)
    (v110 : Vec Ideal S8 .f32) :
    rowOf (k0_pay11 (F := Ideal) v2 v38 v59 v74 v78 v81 v86 v89 v97 v100 v107 v110) p
      = join (rfl : 17 = 16 + 1)
          (join (rfl : 16 = 8 + 8) (rowOf v59 p)
            (affine (rowOf v2 p) (scale (dense (relu zeroW (fun j => rowOf v78 p j + rowOf v81 p j)) v86 (vec v89)))
              (tail (rowOf v74 p) v97 (vec v100) v107 (vec v110))))
          (fun _ : Fin 1 => (∑ j : Fin 8, rowOf v38 p j)
            + ∑ j : Fin 8, scale (dense (relu zeroW (fun j => rowOf v78 p j + rowOf v81 p j)) v86 (vec v89)) j) := by
  unfold k0_pay11
  rw [rowOf_concat3_cols _ _ _ _ (rfl : 16 = 8 + 8) (rfl : 17 = 16 + 1), row_affine, row_unit_trail]
  have hs : ∀ u : FVec Ideal S4096x8 .f32, (multiReduction .add [1] S4096 u 0x00000000#32 reduces_S4096x8_S4096 (.inl rfl) rfl) (ix1 p)
      = ∑ k : Fin 8, rowOf u p k := lane_sum p
  simp only [addf_apply, hs, row_scale, rowOf_dense_device rtc_last, rowOf_dense_device rtc_mid, rowOf_truncf, row_relu_sum,
    rowOf_maximumf_splat, shapeCast_self, rowOf_shapeCast_lead]
  rfl

/-! ## The body, composed -/

/-- The four perceptrons as the body receives them: the first layers of the scale and shift perceptrons of each coupling are
    the windows [0, 256) and [256, 512) of a merged layer of 512 outputs. -/
def blockParams (x1 : Vec Ideal S8x512 .bf16) (x2 : Vec Ideal S512 .f32) (x3 : Vec Ideal S256x256 .bf16) (x4 : Vec Ideal S256 .f32)
    (x5 : Vec Ideal S256x8 .bf16) (x6 : Vec Ideal S8 .f32) (x7 : Vec Ideal S256x256 .bf16) (x8 : Vec Ideal S256 .f32)
    (x9 : Vec Ideal S256x8 .bf16) (x10 : Vec Ideal S8 .f32) (x11 : Vec Ideal S8x512 .bf16) (x12 : Vec Ideal S512 .f32)
    (x13 : Vec Ideal S256x256 .bf16) (x14 : Vec Ideal S256 .f32) (x15 : Vec Ideal S256x8 .bf16) (x16 : Vec Ideal S8 .f32)
    (x17 : Vec Ideal S256x256 .bf16) (x18 : Vec Ideal S256 .f32) (x19 : Vec Ideal S256x8 .bf16) (x20 : Vec Ideal S8 .f32) : Params where
  s1 := Net.ofMerged x1 (vec x2) 0 (by omega) x3 (vec x4) x5 (vec x6)
  t1 := Net.ofMerged x1 (vec x2) 256 (by omega) x7 (vec x8) x9 (vec x10)
  s2 := Net.ofMerged x11 (vec x12) 0 (by omega) x13 (vec x14) x15 (vec x16)
  t2 := Net.ofMerged x11 (vec x12) 256 (by omega) x17 (vec x18) x19 (vec x20)

/-- Row p of the block the body writes is the coupling layer's row of seventeen of row p of the input block. -/
theorem body_row (x0 : Vec Ideal S4096x16 .f32) (x1 : Vec Ideal S8x512 .bf16) (x2 : Vec Ideal S512 .f32) (x3 : Vec Ideal S256x256 .bf16) (x4 : Vec Ideal S256 .f32)
    (x5 : Vec Ideal S256x8 .bf16) (x6 : Vec Ideal S8 .f32) (x7 : Vec Ideal S256x256 .bf16) (x8 : Vec Ideal S256 .f32)
    (x9 : Vec Ideal S256x8 .bf16) (x10 : Vec Ideal S8 .f32) (x11 : Vec Ideal S8x512 .bf16) (x12 : Vec Ideal S512 .f32)
    (x13 : Vec Ideal S256x256 .bf16) (x14 : Vec Ideal S256 .f32) (x15 : Vec Ideal S256x8 .bf16) (x16 : Vec Ideal S8 .f32)
    (x17 : Vec Ideal S256x256 .bf16) (x18 : Vec Ideal S256 .f32) (x19 : Vec Ideal S256x8 .bf16) (x20 : Vec Ideal S8 .f32) :
    rowOf (k0_pay11 (F := Ideal) (k0_pay2 x0) (k0_pay4 x0 x1 x2 x3 x4 x5 x6)
        (k0_pay6 (k0_pay1 x0) (k0_pay4 x0 x1 x2 x3 x4 x5 x6) (k0_pay5 x0 x1 x2) x7 x8 x9 x10)
        (k0_pay8 (k0_pay1 x0) (k0_pay4 x0 x1 x2 x3 x4 x5 x6) (k0_pay5 x0 x1 x2) x7 x8 x9 x10 x11 x12)
        (k0_pay9 (k0_pay1 x0) (k0_pay4 x0 x1 x2 x3 x4 x5 x6) (k0_pay5 x0 x1 x2) x7 x8 x9 x10 x11 x12 x13)
        (k0_pay10 x14) x15 x16 x17 x18 x19 x20) p
      = outRow (blockParams x1 x2 x3 x4 x5 x6 x7 x8 x9 x10 x11 x12 x13 x14 x15 x16 x17 x18 x19 x20) (rowOf x0 p) := by
  rw [out_join, first_out, shift_second_hidden, scale_second_product, bias_rows, half_hi, half_lo, scale_first, shift_first_hidden]
  rfl

end Cert.KernelIdeal.Rows

end
-- ==== Proof.Blocks.lean ====
/-
  From the blocks to the whole array.

  The grid has 32 points; point t stages rows [4096·t, 4096·(t+1)) of x and writes the same rows of the
  [131072, 17] result, and stages every parameter array whole. So what point t writes back is the block at t of
  ONE whole-array function: index (r, k) holds entry k of the coupling layer's row of seventeen of row r of x.
  The 32 blocks tile the result, which therefore ends holding that function everywhere.
-/
import proofs.«179023_j33071248180133_2_alg».proof.Proof.Gen.KernelIdeal.Frame
import proofs.«179023_j33071248180133_2_alg».proof.Proof.DeviceRows
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.RowLayers Cert.Coupling Cert.KernelIdeal.Rows

theorem hz2 : (![0, 0] : Fin 2 → Nat) = fun _ => 0 := funext fun a => by fin_cases a <;> rfl
theorem hz1 : (![0] : Fin 1 → Nat) = fun _ => 0 := funext fun a => by fin_cases a <;> rfl

/-- The body's result at an index (p, k) of its block: entry k of the row of seventeen of row p of the input block. -/
theorem body_at (x0 : Vec Ideal S4096x16 .f32) (x1 : Vec Ideal S8x512 .bf16) (x2 : Vec Ideal S512 .f32) (x3 : Vec Ideal S256x256 .bf16) (x4 : Vec Ideal S256 .f32) (x5 : Vec Ideal S256x8 .bf16) (x6 : Vec Ideal S8 .f32) (x7 : Vec Ideal S256x256 .bf16) (x8 : Vec Ideal S256 .f32) (x9 : Vec Ideal S256x8 .bf16) (x10 : Vec Ideal S8 .f32) (x11 : Vec Ideal S8x512 .bf16) (x12 : Vec Ideal S512 .f32) (x13 : Vec Ideal S256x256 .bf16) (x14 : Vec Ideal S256 .f32) (x15 : Vec Ideal S256x8 .bf16) (x16 : Vec Ideal S8 .f32) (x17 : Vec Ideal S256x256 .bf16) (x18 : Vec Ideal S256 .f32) (x19 : Vec Ideal S256x8 .bf16) (x20 : Vec Ideal S8 .f32) (j : S4096x17.Idx) :
    k0_pay11 (F := Ideal) (k0_pay2 x0) (k0_pay4 x0 x1 x2 x3 x4 x5 x6)
        (k0_pay6 (k0_pay1 x0) (k0_pay4 x0 x1 x2 x3 x4 x5 x6) (k0_pay5 x0 x1 x2) x7 x8 x9 x10)
        (k0_pay8 (k0_pay1 x0) (k0_pay4 x0 x1 x2 x3 x4 x5 x6) (k0_pay5 x0 x1 x2) x7 x8 x9 x10 x11 x12)
        (k0_pay9 (k0_pay1 x0) (k0_pay4 x0 x1 x2 x3 x4 x5 x6) (k0_pay5 x0 x1 x2) x7 x8 x9 x10 x11 x12 x13)
        (k0_pay10 x14) x15 x16 x17 x18 x19 x20 j
      = outRow (blockParams x1 x2 x3 x4 x5 x6 x7 x8 x9 x10 x11 x12 x13 x14 x15 x16 x17 x18 x19 x20) (rowOf x0 (j 0)) (j 1) :=
  (apply_eq_rowOf _ j).trans (congrFun (body_row (j 0) x0 x1 x2 x3 x4 x5 x6 x7 x8 x9 x10 x11 x12 x13 x14 x15 x16 x17 x18 x19 x20) (j 1))

/-- The whole result array: index (r, k) holds entry k of the row of seventeen of row r of X. -/
def outArray (X : S131072x16.Idx → EReal) (P : Params) : S131072x17.Idx → EReal := fun i => outRow P (rowOf X (i 0)) (i 1)

variable (m : (ℓ : Loc nD τ sig) → Buf (Elt Ideal) ℓ) (ρ : Dev nD → PrngReg)

/-- The four perceptrons from the parameter arrays as the region finds them. -/
def regionParams (c : Dev nD) : Params :=
  blockParams (V m c main_v2) (V m c main_v3) (V m c main_v9) (V m c main_arg4) (V m c main_v17) (V m c main_arg6) (V m c main_v11) (V m c main_arg10) (V m c main_v19) (V m c main_arg12) (V m c main_v6) (V m c main_v7) (V m c main_v13) (V m c main_arg16) (V m c main_v21) (V m c main_arg18) (V m c main_v15) (V m c main_arg22) (V m c main_v23) (V m c main_arg24)

/-- The printed index maps, decided over the grid: the input and the result move one block of rows per point, every
    parameter window stays at the origin. -/
theorem idx_facts : ∀ t : Fin cfg0.N, win0_0.index t (0 : Fin 2) = t.val ∧ win0_0.index t (1 : Fin 2) = 0
    ∧ win0_21.index t (0 : Fin 2) = t.val ∧ win0_21.index t (1 : Fin 2) = 0 :=
  (by decide +kernel : ∀ t : Fin grid0.N, _)

theorem origin1 : ∀ t : Fin cfg0.N, win0_1.index t (0 : Fin 2) = 0 ∧ win0_1.index t (1 : Fin 2) = 0 := (by decide +kernel : ∀ t : Fin grid0.N, _)

set_option maxHeartbeats 2000000 in
/-- Window 1 stages its array whole at every point. -/
theorem whole1 (c : Dev nD) (t : Fin cfg0.N) : (iblk m c 1 t : S8x512.Idx → EReal) = (V m c main_v2 : S8x512.Idx → EReal) := funext fun y => by
  show V m c main_v2 (((cfg0.win 1).blk t).view.emb y) = V m c main_v2 y
  obtain ⟨e0, e1⟩ := origin1 t
  refine congrArg (V m c main_v2) (funext fun a => Fin.ext ?_)
  match a with
  | ⟨0, _⟩ => show win0_1.index t (0 : Fin 2) * 8 + 1 * (y 0).val = (y 0).val; omega
  | ⟨1, _⟩ => show win0_1.index t (1 : Fin 2) * 512 + 1 * (y 1).val = (y 1).val; omega

theorem origin2 : ∀ t : Fin cfg0.N, win0_2.index t (0 : Fin 1) = 0 := (by decide +kernel : ∀ t : Fin grid0.N, _)

set_option maxHeartbeats 2000000 in
/-- Window 2 stages its array whole at every point. -/
theorem whole2 (c : Dev nD) (t : Fin cfg0.N) : (iblk m c 2 t : S512.Idx → EReal) = (V m c main_v3 : S512.Idx → EReal) := funext fun y => by
  show V m c main_v3 (((cfg0.win 2).blk t).view.emb y) = V m c main_v3 y
  have e0 := origin2 t
  refine congrArg (V m c main_v3) (funext fun a => Fin.ext ?_)
  match a with
  | ⟨0, _⟩ => show win0_2.index t (0 : Fin 1) * 512 + 1 * (y 0).val = (y 0).val; omega

theorem origin3 : ∀ t : Fin cfg0.N, win0_3.index t (0 : Fin 2) = 0 ∧ win0_3.index t (1 : Fin 2) = 0 := (by decide +kernel : ∀ t : Fin grid0.N, _)

set_option maxHeartbeats 2000000 in
/-- Window 3 stages its array whole at every point. -/
theorem whole3 (c : Dev nD) (t : Fin cfg0.N) : (iblk m c 3 t : S256x256.Idx → EReal) = (V m c main_v9 : S256x256.Idx → EReal) := funext fun y => by
  show V m c main_v9 (((cfg0.win 3).blk t).view.emb y) = V m c main_v9 y
  obtain ⟨e0, e1⟩ := origin3 t
  refine congrArg (V m c main_v9) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem origin4 : ∀ t : Fin cfg0.N, win0_4.index t (0 : Fin 1) = 0 := (by decide +kernel : ∀ t : Fin grid0.N, _)

set_option maxHeartbeats 2000000 in
/-- Window 4 stages its array whole at every point. -/
theorem whole4 (c : Dev nD) (t : Fin cfg0.N) : (iblk m c 4 t : S256.Idx → EReal) = (V m c main_arg4 : S256.Idx → EReal) := funext fun y => by
  show V m c main_arg4 (((cfg0.win 4).blk t).view.emb y) = V m c main_arg4 y
  have e0 := origin4 t
  refine congrArg (V m c main_arg4) (funext fun a => Fin.ext ?_)
  match a with
  | ⟨0, _⟩ => show win0_4.index t (0 : Fin 1) * 256 + 1 * (y 0).val = (y 0).val; omega

theorem origin5 : ∀ t : Fin cfg0.N, win0_5.index t (0 : Fin 2) = 0 ∧ win0_5.index t (1 : Fin 2) = 0 := (by decide +kernel : ∀ t : Fin grid0.N, _)

set_option maxHeartbeats 2000000 in
/-- Window 5 stages its array whole at every point. -/
theorem whole5 (c : Dev nD) (t : Fin cfg0.N) : (iblk m c 5 t : S256x8.Idx → EReal) = (V m c main_v17 : S256x8.Idx → EReal) := funext fun y => by
  show V m c main_v17 (((cfg0.win 5).blk t).view.emb y) = V m c main_v17 y
  obtain ⟨e0, e1⟩ := origin5 t
  refine congrArg (V m c main_v17) (funext fun a => Fin.ext ?_)
  match a with
  | ⟨0, _⟩ => show win0_5.index t (0 : Fin 2) * 256 + 1 * (y 0).val = (y 0).val; omega
  | ⟨1, _⟩ => show win0_5.index t (1 : Fin 2) * 8 + 1 * (y 1).val = (y 1).val; omega

theorem origin6 : ∀ t : Fin cfg0.N, win0_6.index t (0 : Fin 1) = 0 := (by decide +kernel : ∀ t : Fin grid0.N, _)

set_option maxHeartbeats 2000000 in
/-- Window 6 stages its array whole at every point. -/
theorem whole6 (c : Dev nD) (t : Fin cfg0.N) : (iblk m c 6 t : S8.Idx → EReal) = (V m c main_arg6 : S8.Idx → EReal) := funext fun y => by
  show V m c main_arg6 (((cfg0.win 6).blk t).view.emb y) = V m c main_arg6 y
  have e0 := origin6 t
  refine congrArg (V m c main_arg6) (funext fun a => Fin.ext ?_)
  match a with
  | ⟨0, _⟩ => show win0_6.index t (0 : Fin 1) * 8 + 1 * (y 0).val = (y 0).val; omega

theorem origin7 : ∀ t : Fin cfg0.N, win0_7.index t (0 : Fin 2) = 0 ∧ win0_7.index t (1 : Fin 2) = 0 := (by decide +kernel : ∀ t : Fin grid0.N, _)

set_option maxHeartbeats 2000000 in
/-- Window 7 stages its array whole at every point. -/
theorem whole7 (c : Dev nD) (t : Fin cfg0.N) : (iblk m c 7 t : S256x256.Idx → EReal) = (V m c main_v11 : S256x256.Idx → EReal) := funext fun y => by
  show V m c main_v11 (((cfg0.win 7).blk t).view.emb y) = V m c main_v11 y
  obtain ⟨e0, e1⟩ := origin7 t
  refine congrArg (V m c main_v11) (funext fun a => Fin.ext ?_)
  match a with
  | ⟨0, _⟩ => show win0_7.index t (0 : Fin 2) * 256 + 1 * (y 0).val = (y 0).val; omega
  | ⟨1, _⟩ => show win0_7.index t (1 : Fin 2) * 256 + 1 * (y 1).val = (y 1).val; omega

theorem origin8 : ∀ t : Fin cfg0.N, win0_8.index t (0 : Fin 1) = 0 := (by decide +kernel : ∀ t : Fin grid0.N, _)

set_option maxHeartbeats 2000000 in
/-- Window 8 stages its array whole at every point. -/
theorem whole8 (c : Dev nD) (t : Fin cfg0.N) : (iblk m c 8 t : S256.Idx → EReal) = (V m c main_arg10 : S256.Idx → EReal) := funext fun y => by
  show V m c main_arg10 (((cfg0.win 8).blk t).view.emb y) = V m c main_arg10 y
  have e0 := origin8 t
  refine congrArg (V m c main_arg10) (funext fun a => Fin.ext ?_)
  match a with
  | ⟨0, _⟩ => show win0_8.index t (0 : Fin 1) * 256 + 1 * (y 0).val = (y 0).val; omega

theorem origin9 : ∀ t : Fin cfg0.N, win0_9.index t (0 : Fin 2) = 0 ∧ win0_9.index t (1 : Fin 2) = 0 := (by decide +kernel : ∀ t : Fin grid0.N, _)

set_option maxHeartbeats 2000000 in
/-- Window 9 stages its array whole at every point. -/
theorem whole9 (c : Dev nD) (t : Fin cfg0.N) : (iblk m c 9 t : S256x8.Idx → EReal) = (V m c main_v19 : S256x8.Idx → EReal) := funext fun y => by
  show V m c main_v19 (((cfg0.win 9).blk t).view.emb y) = V m c main_v19 y
  obtain ⟨e0, e1⟩ := origin9 t
  refine congrArg (V m c main_v19) (funext fun a => Fin.ext ?_)
  match a with
  | ⟨0, _⟩ => show win0_9.index t (0 : Fin 2) * 256 + 1 * (y 0).val = (y 0).val; omega
  | ⟨1, _⟩ => show win0_9.index t (1 : Fin 2) * 8 + 1 * (y 1).val = (y 1).val; omega

theorem origin10 : ∀ t : Fin cfg0.N, win0_10.index t (0 : Fin 1) = 0 := (by decide +kernel : ∀ t : Fin grid0.N, _)

set_option maxHeartbeats 2000000 in
/-- Window 10 stages its array whole at every point. -/
theorem whole10 (c : Dev nD) (t : Fin cfg0.N) : (iblk m c 10 t : S8.Idx → EReal) = (V m c main_arg12 : S8.Idx → EReal) := funext fun y => by
  show V m c main_arg12 (((cfg0.win 10).blk t).view.emb y) = V m c main_arg12 y
  have e0 := origin10 t
  refine congrArg (V m c main_arg12) (funext fun a => Fin.ext ?_)
  match a with
  | ⟨0, _⟩ => show win0_10.index t (0 : Fin 1) * 8 + 1 * (y 0).val = (y 0).val; omega

theorem origin11 : ∀ t : Fin cfg0.N, win0_11.index t (0 : Fin 2) = 0 ∧ win0_11.index t (1 : Fin 2) = 0 := (by decide +kernel : ∀ t : Fin grid0.N, _)

set_option maxHeartbeats 2000000 in
/-- Window 11 stages its array whole at every point. -/
theorem whole11 (c : Dev nD) (t : Fin cfg0.N) : (iblk m c 11 t : S8x512.Idx → EReal) = (V m c main_v6 : S8x512.Idx → EReal) := funext fun y => by
  show V m c main_v6 (((cfg0.win 11).blk t).view.emb y) = V m c main_v6 y
  obtain ⟨e0, e1⟩ := origin11 t
  refine congrArg (V m c main_v6) (funext fun a => Fin.ext ?_)
  match a with
  | ⟨0, _⟩ => show win0_11.index t (0 : Fin 2) * 8 + 1 * (y 0).val = (y 0).val; omega
  | ⟨1, _⟩ => show win0_11.index t (1 : Fin 2) * 512 + 1 * (y 1).val = (y 1).val; omega

theorem origin12 : ∀ t : Fin cfg0.N, win0_12.index t (0 : Fin 1) = 0 := (by decide +kernel : ∀ t : Fin grid0.N, _)

set_option maxHeartbeats 2000000 in
/-- Window 12 stages its array whole at every point. -/
theorem whole12 (c : Dev nD) (t : Fin cfg0.N) : (iblk m c 12 t : S512.Idx → EReal) = (V m c main_v7 : S512.Idx → EReal) := funext fun y => by
  show V m c main_v7 (((cfg0.win 12).blk t).view.emb y) = V m c main_v7 y
  have e0 := origin12 t
  refine congrArg (V m c main_v7) (funext fun a => Fin.ext ?_)
  match a with
  | ⟨0, _⟩ => show win0_12.index t (0 : Fin 1) * 512 + 1 * (y 0).val = (y 0).val; omega

theorem origin13 : ∀ t : Fin cfg0.N, win0_13.index t (0 : Fin 2) = 0 ∧ win0_13.index t (1 : Fin 2) = 0 := (by decide +kernel : ∀ t : Fin grid0.N, _)

set_option maxHeartbeats 2000000 in
/-- Window 13 stages its array whole at every point. -/
theorem whole13 (c : Dev nD) (t : Fin cfg0.N) : (iblk m c 13 t : S256x256.Idx → EReal) = (V m c main_v13 : S256x256.Idx → EReal) := funext fun y => by
  show V m c main_v13 (((cfg0.win 13).blk t).view.emb y) = V m c main_v13 y
  obtain ⟨e0, e1⟩ := origin13 t
  refine congrArg (V m c main_v13) (funext fun a => Fin.ext ?_)
  match a with
  | ⟨0, _⟩ => show win0_13.index t (0 : Fin 2) * 256 + 1 * (y 0).val = (y 0).val; omega
  | ⟨1, _⟩ => show win0_13.index t (1 : Fin 2) * 256 + 1 * (y 1).val = (y 1).val; omega

theorem origin14 : ∀ t : Fin cfg0.N, win0_14.index t (0 : Fin 1) = 0 := (by decide +kernel : ∀ t : Fin grid0.N, _)

set_option maxHeartbeats 2000000 in
/-- Window 14 stages its array whole at every point. -/
theorem whole14 (c : Dev nD) (t : Fin cfg0.N) : (iblk m c 14 t : S256.Idx → EReal) = (V m c main_arg16 : S256.Idx → EReal) := funext fun y => by
  show V m c main_arg16 (((cfg0.win 14).blk t).view.emb y) = V m c main_arg16 y
  have e0 := origin14 t
  refine congrArg (V m c main_arg16) (funext fun a => Fin.ext ?_)
  match a with
  | ⟨0, _⟩ => show win0_14.index t (0 : Fin 1) * 256 + 1 * (y 0).val = (y 0).val; omega

theorem origin15 : ∀ t : Fin cfg0.N, win0_15.index t (0 : Fin 2) = 0 ∧ win0_15.index t (1 : Fin 2) = 0 := (by decide +kernel : ∀ t : Fin grid0.N, _)

set_option maxHeartbeats 2000000 in
/-- Window 15 stages its array whole at every point. -/
theorem whole15 (c : Dev nD) (t : Fin cfg0.N) : (iblk m c 15 t : S256x8.Idx → EReal) = (V m c main_v21 : S256x8.Idx → EReal) := funext fun y => by
  show V m c main_v21 (((cfg0.win 15).blk t).view.emb y) = V m c main_v21 y
  obtain ⟨e0, e1⟩ := origin15 t
  refine congrArg (V m c main_v21) (funext fun a => Fin.ext ?_)
  match a with
  | ⟨0, _⟩ => show win0_15.index t (0 : Fin 2) * 256 + 1 * (y 0).val = (y 0).val; omega
  | ⟨1, _⟩ => show win0_15.index t (1 : Fin 2) * 8 + 1 * (y 1).val = (y 1).val; omega

theorem origin16 : ∀ t : Fin cfg0.N, win0_16.index t (0 : Fin 1) = 0 := (by decide +kernel : ∀ t : Fin grid0.N, _)

set_option maxHeartbeats 2000000 in
/-- Window 16 stages its array whole at every point. -/
theorem whole16 (c : Dev nD) (t : Fin cfg0.N) : (iblk m c 16 t : S8.Idx → EReal) = (V m c main_arg18 : S8.Idx → EReal) := funext fun y => by
  show V m c main_arg18 (((cfg0.win 16).blk t).view.emb y) = V m c main_arg18 y
  have e0 := origin16 t
  refine congrArg (V m c main_arg18) (funext fun a => Fin.ext ?_)
  match a with
  | ⟨0, _⟩ => show win0_16.index t (0 : Fin 1) * 8 + 1 * (y 0).val = (y 0).val; omega

theorem origin17 : ∀ t : Fin cfg0.N, win0_17.index t (0 : Fin 2) = 0 ∧ win0_17.index t (1 : Fin 2) = 0 := (by decide +kernel : ∀ t : Fin grid0.N, _)

set_option maxHeartbeats 2000000 in
/-- Window 17 stages its array whole at every point. -/
theorem whole17 (c : Dev nD) (t : Fin cfg0.N) : (iblk m c 17 t : S256x256.Idx → EReal) = (V m c main_v15 : S256x256.Idx → EReal) := funext fun y => by
  show V m c main_v15 (((cfg0.win 17).blk t).view.emb y) = V m c main_v15 y
  obtain ⟨e0, e1⟩ := origin17 t
  refine congrArg (V m c main_v15) (funext fun a => Fin.ext ?_)
  match a with
  | ⟨0, _⟩ => show win0_17.index t (0 : Fin 2) * 256 + 1 * (y 0).val = (y 0).val; omega
  | ⟨1, _⟩ => show win0_17.index t (1 : Fin 2) * 256 + 1 * (y 1).val = (y 1).val; omega

theorem origin18 : ∀ t : Fin cfg0.N, win0_18.index t (0 : Fin 1) = 0 := (by decide +kernel : ∀ t : Fin grid0.N, _)

set_option maxHeartbeats 2000000 in
/-- Window 18 stages its array whole at every point. -/
theorem whole18 (c : Dev nD) (t : Fin cfg0.N) : (iblk m c 18 t : S256.Idx → EReal) = (V m c main_arg22 : S256.Idx → EReal) := funext fun y => by
  show V m c main_arg22 (((cfg0.win 18).blk t).view.emb y) = V m c main_arg22 y
  have e0 := origin18 t
  refine congrArg (V m c main_arg22) (funext fun a => Fin.ext ?_)
  match a with
  | ⟨0, _⟩ => show win0_18.index t (0 : Fin 1) * 256 + 1 * (y 0).val = (y 0).val; omega

theorem origin19 : ∀ t : Fin cfg0.N, win0_19.index t (0 : Fin 2) = 0 ∧ win0_19.index t (1 : Fin 2) = 0 := (by decide +kernel : ∀ t : Fin grid0.N, _)

set_option maxHeartbeats 2000000 in
/-- Window 19 stages its array whole at every point. -/
theorem whole19 (c : Dev nD) (t : Fin cfg0.N) : (iblk m c 19 t : S256x8.Idx → EReal) = (V m c main_v23 : S256x8.Idx → EReal) := funext fun y => by
  show V m c main_v23 (((cfg0.win 19).blk t).view.emb y) = V m c main_v23 y
  obtain ⟨e0, e1⟩ := origin19 t
  refine congrArg (V m c main_v23) (funext fun a => Fin.ext ?_)
  match a with
  | ⟨0, _⟩ => show win0_19.index t (0 : Fin 2) * 256 + 1 * (y 0).val = (y 0).val; omega
  | ⟨1, _⟩ => show win0_19.index t (1 : Fin 2) * 8 + 1 * (y 1).val = (y 1).val; omega

theorem origin20 : ∀ t : Fin cfg0.N, win0_20.index t (0 : Fin 1) = 0 := (by decide +kernel : ∀ t : Fin grid0.N, _)

set_option maxHeartbeats 2000000 in
/-- Window 20 stages its array whole at every point. -/
theorem whole20 (c : Dev nD) (t : Fin cfg0.N) : (iblk m c 20 t : S8.Idx → EReal) = (V m c main_arg24 : S8.Idx → EReal) := funext fun y => by
  show V m c main_arg24 (((cfg0.win 20).blk t).view.emb y) = V m c main_arg24 y
  have e0 := origin20 t
  refine congrArg (V m c main_arg24) (funext fun a => Fin.ext ?_)
  match a with
  | ⟨0, _⟩ => show win0_20.index t (0 : Fin 1) * 8 + 1 * (y 0).val = (y 0).val; omega

set_option maxHeartbeats 4000000 in
/-- What point t writes back is the block at t of the whole result array. -/
theorem flushed_eq (c : Dev nD) (t : Fin cfg0.N) :
    (dats m 0 c).flushed 21 t = ((cfg0.win 21).blk t).view.read (Elt Ideal) (outArray (V m c main_arg0) (regionParams m c)) := by
  show (cfg0.win 21).cut (grid0.coords t) ((dats m 0 c).after 21 t) = _
  rw [after0_21]
  unfold out0_21
  rw [View.canon_unit_zero hz2]
  simp only [View.ld_unit_zero (S := S4096x16) hz2, View.ld_unit_zero (S := S8x512) hz2, View.ld_unit_zero (S := S512) hz1,
    View.ld_unit_zero (S := S256x256) hz2, View.ld_unit_zero (S := S256) hz1, View.ld_unit_zero (S := S256x8) hz2,
    View.ld_unit_zero (S := S8) hz1]
  obtain ⟨e0a, e0b, eoa, eob⟩ := idx_facts t
  funext j
  refine (body_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) j).trans ?_
  have hrow : rowOf (iblk m c 0 t : S4096x16.Idx → EReal) (j 0) = rowOf (V m c main_arg0 : S131072x16.Idx → EReal) ((((cfg0.win 21).blk t).view.emb j) 0) :=
    funext fun k => by
      show V m c main_arg0 (((cfg0.win 0).blk t).view.emb (ix2 (j 0) k)) = V m c main_arg0 (ix2 ((((cfg0.win 21).blk t).view.emb j) 0) k)
      refine congrArg (V m c main_arg0) (funext fun a => Fin.ext ?_)
      match a with
      | ⟨0, _⟩ => show win0_0.index t (0 : Fin 2) * 4096 + 1 * (j 0).val = win0_21.index t (0 : Fin 2) * 4096 + 1 * (j 0).val; omega
      | ⟨1, _⟩ => show win0_0.index t (1 : Fin 2) * 16 + 1 * k.val = k.val; omega
  have hcol : (((cfg0.win 21).blk t).view.emb j) 1 = j 1 := Fin.ext (by
    show win0_21.index t (1 : Fin 2) * 17 + 1 * (j 1).val = (j 1).val; omega)
  show outRow (blockParams (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (rowOf (iblk m c 0 t : S4096x16.Idx → EReal) (j 0)) (j 1)
    = outRow (regionParams m c) (rowOf (V m c main_arg0 : S131072x16.Idx → EReal) ((((cfg0.win 21).blk t).view.emb j) 0)) ((((cfg0.win 21).blk t).view.emb j) 1)
  rw [hrow, hcol, whole1 m c t, whole2 m c t, whole3 m c t, whole4 m c t, whole5 m c t, whole6 m c t, whole7 m c t, whole8 m c t, whole9 m c t, whole10 m c t, whole11 m c t, whole12 m c t, whole13 m c t, whole14 m c t, whole15 m c t, whole16 m c t, whole17 m c t, whole18 m c t, whole19 m c t, whole20 m c t]
  rfl

/-- An index of the result is in point t's block iff each coordinate is in the block's range on its axis. -/
theorem mem_blk (t : Fin cfg0.N) (i : S131072x17.Idx) :
    i ∈ ((cfg0.win 21).blk t).view.set ↔ ∀ a : Fin 2, win0_21.index t a * S4096x17.size a ≤ (i a).val ∧ (i a).val < win0_21.index t a * S4096x17.size a + S4096x17.size a := by
  show i ∈ ((View.whole main_v24).slice (win0_21.rect t)).set ↔ _
  rw [View.set_slice_whole, Rect.mem_set_unit]
  exact Iff.rfl

/-- Row r of the result is in the block of point r / 4096. -/
theorem cover (i : S131072x17.Idx) : ∃ t : Fin cfg0.N, (cfg0.win 21).flush t = true ∧ i ∈ ((cfg0.win 21).blk t).view.set := by
  have hi0 : (i 0).val < 131072 := (i 0).isLt
  have hi1 : (i 1).val < 17 := (i 1).isLt
  have ht : (i 0).val / 4096 < 32 := by omega
  refine ⟨⟨(i 0).val / 4096, ht⟩, flush0_21 _, ?_⟩
  rw [mem_blk]
  have hf := idx_facts ⟨(i 0).val / 4096, ht⟩
  have e2 : win0_21.index ⟨(i 0).val / 4096, ht⟩ (0 : Fin 2) = (i 0).val / 4096 := hf.2.2.1
  have e3 : win0_21.index ⟨(i 0).val / 4096, ht⟩ (1 : Fin 2) = 0 := hf.2.2.2
  intro a
  match a with
  | ⟨0, _⟩ =>
    show win0_21.index ⟨(i 0).val / 4096, ht⟩ (0 : Fin 2) * 4096 ≤ (i 0).val ∧ (i 0).val < win0_21.index ⟨(i 0).val / 4096, ht⟩ (0 : Fin 2) * 4096 + 4096
    rw [e2]; omega
  | ⟨1, _⟩ =>
    show win0_21.index ⟨(i 0).val / 4096, ht⟩ (1 : Fin 2) * 17 ≤ (i 1).val ∧ (i 1).val < win0_21.index ⟨(i 0).val / 4096, ht⟩ (1 : Fin 2) * 17 + 17
    rw [e3]; omega

/-- The result array after the run. -/
theorem final (c : Dev nD) : (dats m 0 c).arrAt 21 cfg0.N = outArray (V m c main_arg0) (regionParams m c) :=
  (dats m 0 c).arrAt_eq_of_cover 21 (outArray (V m c main_arg0) (regionParams m c)) (fun t _ => flushed_eq m c t) cover

end Cert.KernelIdeal.Blocks

end
-- ==== Proof.Weights.lean ====
/-
  The parameter arrays as the region finds them, and the four perceptrons they spell.

  Before the region @main stacks the first-layer matrices of the two perceptrons of each coupling (rows of one
  on top of the other's), transposes every matrix to (input, output), and stacks the two first-layer biases.
  Read at an index, column j < 256 of the stacked-then-transposed matrix is row j of the first matrix, column
  256 + j row j of the second; so the window [0, 256) of the merged first layer is the first perceptron's own
  first layer, the window [256, 512) the second's — the perceptrons the reference applies one by one.
-/
import proofs.«179023_j33071248180133_2_alg».proof.Proof.Gen.KernelIdeal.Frame
import proofs.«179023_j33071248180133_2_alg».proof.Proof.Blocks
import proofs.«179023_j33071248180133_2_alg».proof.Proof.HostRows
import Idealize.ShloMosaic.Lib.StableHlo.Run
import Idealize.ShloMosaic.Lib.ValueLayout

set_option maxRecDepth 16384

noncomputable section

namespace Cert.KernelIdeal.Weights

open Idealize.ShloMosaic Idealize.ShloMosaic.TcCoe Idealize.ShloMosaic.ValueIdx Idealize.SL.Sem Idealize.ShloMosaic.StableHlo
open Cert.KernelIdeal Cert.KernelIdeal.Gen Cert.RowLayers Cert.Coupling Cert.KernelIdeal.Rows

/-! ## Stacking rows, then transposing, read at a column -/

section Stack
variable (A B : FVec Ideal S256x8 .f32) (bA bB : FVec Ideal S256 .f32)

theorem stacked_lo (i : S8x256.Idx) (h : 0 + (i 1).val < 512) :
    transpose S8x512 [1, 0] (concatenate S512x8 0 [⟨S256x8, A⟩, ⟨S256x8, B⟩] concatenates_S256x8_S256x8_S512x8_d0) transposes_S512x8_S8x512_1_0
        (ix2 (i 0) ⟨0 + (i 1).val, h⟩)
      = transpose S8x256 [1, 0] A Cert.ReferenceIdeal.Gen.transposes_S256x8_S8x256_1_0 i := by
  refine (transpose_ix2_apply _ _ (i 0) ⟨0 + (i 1).val, h⟩).trans ?_
  refine Eq.trans ?_ ((congrArg (transpose S8x256 [1, 0] A Cert.ReferenceIdeal.Gen.transposes_S256x8_S8x256_1_0) (eq_ix2 i)).trans
    (transpose_ix2_apply A _ (i 0) (i 1))).symm
  exact concatenate_pair_apply_left 0 A B concatenates_S256x8_S256x8_S512x8_d0 _ rfl (ix2 (i 1) (i 0)) (fun b => by
    match b with
    | ⟨0, _⟩ => exact (Nat.zero_add _).symm
    | ⟨1, _⟩ => rfl)

theorem stacked_hi (i : S8x256.Idx) (h : 256 + (i 1).val < 512) :
    transpose S8x512 [1, 0] (concatenate S512x8 0 [⟨S256x8, A⟩, ⟨S256x8, B⟩] concatenates_S256x8_S256x8_S512x8_d0) transposes_S512x8_S8x512_1_0
        (ix2 (i 0) ⟨256 + (i 1).val, h⟩)
      = transpose S8x256 [1, 0] B Cert.ReferenceIdeal.Gen.transposes_S256x8_S8x256_1_0 i := by
  refine (transpose_ix2_apply _ _ (i 0) ⟨256 + (i 1).val, h⟩).trans ?_
  refine Eq.trans ?_ ((congrArg (transpose S8x256 [1, 0] B Cert.ReferenceIdeal.Gen.transposes_S256x8_S8x256_1_0) (eq_ix2 i)).trans
    (transpose_ix2_apply B _ (i 0) (i 1))).symm
  exact concatenate_pair_apply_right 0 A B concatenates_S256x8_S256x8_S512x8_d0 _ rfl rfl (ix2 (i 1) (i 0)) (fun b hne => by
    match b with
    | ⟨0, _⟩ => exact absurd rfl hne
    | ⟨1, _⟩ => rfl)
    (by show (i 1).val + 256 = 256 + (i 1).val; omega)

theorem stacked_bias_lo (j : Fin 256) (h : 0 + j.val < 512) :
    vec (concatenate S512 0 [⟨S256, bA⟩, ⟨S256, bB⟩] concatenates_S256_S256_S512_d0) ⟨0 + j.val, h⟩ = vec bA j :=
  concatenate_pair_apply_left 0 bA bB concatenates_S256_S256_S512_d0 _ rfl (ix1 j) (fun b => by
    match b with
    | ⟨0, _⟩ => exact (Nat.zero_add _).symm)

theorem stacked_bias_hi (j : Fin 256) (h : 256 + j.val < 512) :
    vec (concatenate S512 0 [⟨S256, bA⟩, ⟨S256, bB⟩] concatenates_S256_S256_S512_d0) ⟨256 + j.val, h⟩ = vec bB j :=
  concatenate_pair_apply_right 0 bA bB concatenates_S256_S256_S512_d0 _ rfl rfl (ix1 j) (fun b hne => by
    match b with
    | ⟨0, _⟩ => exact absurd rfl hne)
    (by show j.val + 256 = 256 + j.val; omega)

variable (w2 : FVec Ideal S256x256 .f32) (b2 : FVec Ideal S256 .f32) (w3 : FVec Ideal S8x256 .f32) (b3 : FVec Ideal S8 .f32)

/-- The perceptron that owns the window [0, 256) of the merged layer is the one of the first stacked matrix. -/
theorem net_lo :
    Net.ofMerged (truncf .bf16 (transpose S8x512 [1, 0] (concatenate S512x8 0 [⟨S256x8, A⟩, ⟨S256x8, B⟩] concatenates_S256x8_S256x8_S512x8_d0) transposes_S512x8_S8x512_1_0) bitsLt_bf16_f32)
        (vec (concatenate S512 0 [⟨S256, bA⟩, ⟨S256, bB⟩] concatenates_S256_S256_S512_d0)) 0 (by omega)
        (truncf .bf16 (transpose S256x256 [1, 0] w2 transposes_S256x256_S256x256_1_0) bitsLt_bf16_f32) (vec b2)
        (truncf .bf16 (transpose S256x8 [1, 0] w3 transposes_S8x256_S256x8_1_0) bitsLt_bf16_f32) (vec b3)
      = Cert.ReferenceIdeal.Rows.refNet A bA w2 b2 w3 b3 := by
  unfold Net.ofMerged Cert.ReferenceIdeal.Rows.refNet
  rw [Net.mk.injEq]
  exact ⟨funext fun i => stacked_lo A B i _, funext fun j => stacked_bias_lo bA bB j _, rfl, rfl, rfl, rfl⟩

/-- The perceptron that owns the window [256, 512) is the one of the second stacked matrix. -/
theorem net_hi :
    Net.ofMerged (truncf .bf16 (transpose S8x512 [1, 0] (concatenate S512x8 0 [⟨S256x8, A⟩, ⟨S256x8, B⟩] concatenates_S256x8_S256x8_S512x8_d0) transposes_S512x8_S8x512_1_0) bitsLt_bf16_f32)
        (vec (concatenate S512 0 [⟨S256, bA⟩, ⟨S256, bB⟩] concatenates_S256_S256_S512_d0)) 256 (by omega)
        (truncf .bf16 (transpose S256x256 [1, 0] w2 transposes_S256x256_S256x256_1_0) bitsLt_bf16_f32) (vec b2)
        (truncf .bf16 (transpose S256x8 [1, 0] w3 transposes_S8x256_S256x8_1_0) bitsLt_bf16_f32) (vec b3)
      = Cert.ReferenceIdeal.Rows.refNet B bB w2 b2 w3 b3 := by
  unfold Net.ofMerged Cert.ReferenceIdeal.Rows.refNet
  rw [Net.mk.injEq]
  exact ⟨funext fun i => stacked_hi A B i _, funext fun j => stacked_bias_hi bA bB j _, rfl, rfl, rfl, rfl⟩

end Stack

/-! ## The arrays @main computes before the region -/

variable (m : (ℓ : Loc nD τ sig) → Buf (Elt Ideal) ℓ)

theorem V_v2 (c : Dev nD) : (V m c main_v2 : S8x512.Idx → EReal) = ((truncf .bf16 (transpose S8x512 [1, 0] (concatenate S512x8 0 [⟨S256x8, (m ((c : Thread nD τ).loc main_arg1) : FVec Ideal S256x8 .f32)⟩, ⟨S256x8, (m ((c : Thread nD τ).loc main_arg7) : FVec Ideal S256x8 .f32)⟩] concatenates_S256x8_S256x8_S512x8_d0) transposes_S512x8_S8x512_1_0) bitsLt_bf16_f32 : FVec Ideal S8x512 .bf16) : S8x512.Idx → EReal) := by
  show StableHlo.after hostOps0 (fun b => m (c, b)) (Proc.devRef .tc main_v2) = _
  after_results
  try rfl

theorem V_v3 (c : Dev nD) : (V m c main_v3 : S512.Idx → EReal) = ((concatenate S512 0 [⟨S256, (m ((c : Thread nD τ).loc main_arg2) : FVec Ideal S256 .f32)⟩, ⟨S256, (m ((c : Thread nD τ).loc main_arg8) : FVec Ideal S256 .f32)⟩] concatenates_S256_S256_S512_d0 : FVec Ideal S512 .f32) : S512.Idx → EReal) := by
  show StableHlo.after hostOps0 (fun b => m (c, b)) (Proc.devRef .tc main_v3) = _
  after_results
  try rfl

theorem V_v6 (c : Dev nD) : (V m c main_v6 : S8x512.Idx → EReal) = ((truncf .bf16 (transpose S8x512 [1, 0] (concatenate S512x8 0 [⟨S256x8, (m ((c : Thread nD τ).loc main_arg13) : FVec Ideal S256x8 .f32)⟩, ⟨S256x8, (m ((c : Thread nD τ).loc main_arg19) : FVec Ideal S256x8 .f32)⟩] concatenates_S256x8_S256x8_S512x8_d0) transposes_S512x8_S8x512_1_0) bitsLt_bf16_f32 : FVec Ideal S8x512 .bf16) : S8x512.Idx → EReal) := by
  show StableHlo.after hostOps0 (fun b => m (c, b)) (Proc.devRef .tc main_v6) = _
  after_results
  try rfl

theorem V_v7 (c : Dev nD) : (V m c main_v7 : S512.Idx → EReal) = ((concatenate S512 0 [⟨S256, (m ((c : Thread nD τ).loc main_arg14) : FVec Ideal S256 .f32)⟩, ⟨S256, (m ((c : Thread nD τ).loc main_arg20) : FVec Ideal S256 .f32)⟩] concatenates_S256_S256_S512_d0 : FVec Ideal S512 .f32) : S512.Idx → EReal) := by
  show StableHlo.after hostOps0 (fun b => m (c, b)) (Proc.devRef .tc main_v7) = _
  after_results
  try rfl

theorem V_v9 (c : Dev nD) : (V m c main_v9 : S256x256.Idx → EReal) = ((truncf .bf16 (transpose S256x256 [1, 0] (m ((c : Thread nD τ).loc main_arg3) : FVec Ideal S256x256 .f32) transposes_S256x256_S256x256_1_0) bitsLt_bf16_f32 : FVec Ideal S256x256 .bf16) : S256x256.Idx → EReal) := by
  show StableHlo.after hostOps0 (fun b => m (c, b)) (Proc.devRef .tc main_v9) = _
  after_results
  try rfl

theorem V_v11 (c : Dev nD) : (V m c main_v11 : S256x256.Idx → EReal) = ((truncf .bf16 (transpose S256x256 [1, 0] (m ((c : Thread nD τ).loc main_arg9) : FVec Ideal S256x256 .f32) transposes_S256x256_S256x256_1_0) bitsLt_bf16_f32 : FVec Ideal S256x256 .bf16) : S256x256.Idx → EReal) := by
  show StableHlo.after hostOps0 (fun b => m (c, b)) (Proc.devRef .tc main_v11) = _
  after_results
  try rfl

theorem V_v13 (c : Dev nD) : (V m c main_v13 : S256x256.Idx → EReal) = ((truncf .bf16 (transpose S256x256 [1, 0] (m ((c : Thread nD τ).loc main_arg15) : FVec Ideal S256x256 .f32) transposes_S256x256_S256x256_1_0) bitsLt_bf16_f32 : FVec Ideal S256x256 .bf16) : S256x256.Idx → EReal) := by
  show StableHlo.after hostOps0 (fun b => m (c, b)) (Proc.devRef .tc main_v13) = _
  after_results
  try rfl

theorem V_v15 (c : Dev nD) : (V m c main_v15 : S256x256.Idx → EReal) = ((truncf .bf16 (transpose S256x256 [1, 0] (m ((c : Thread nD τ).loc main_arg21) : FVec Ideal S256x256 .f32) transposes_S256x256_S256x256_1_0) bitsLt_bf16_f32 : FVec Ideal S256x256 .bf16) : S256x256.Idx → EReal) := by
  show StableHlo.after hostOps0 (fun b => m (c, b)) (Proc.devRef .tc main_v15) = _
  after_results
  try rfl

theorem V_v17 (c : Dev nD) : (V m c main_v17 : S256x8.Idx → EReal) = ((truncf .bf16 (transpose S256x8 [1, 0] (m ((c : Thread nD τ).loc main_arg5) : FVec Ideal S8x256 .f32) transposes_S8x256_S256x8_1_0) bitsLt_bf16_f32 : FVec Ideal S256x8 .bf16) : S256x8.Idx → EReal) := by
  show StableHlo.after hostOps0 (fun b => m (c, b)) (Proc.devRef .tc main_v17) = _
  after_results
  try rfl

theorem V_v19 (c : Dev nD) : (V m c main_v19 : S256x8.Idx → EReal) = ((truncf .bf16 (transpose S256x8 [1, 0] (m ((c : Thread nD τ).loc main_arg11) : FVec Ideal S8x256 .f32) transposes_S8x256_S256x8_1_0) bitsLt_bf16_f32 : FVec Ideal S256x8 .bf16) : S256x8.Idx → EReal) := by
  show StableHlo.after hostOps0 (fun b => m (c, b)) (Proc.devRef .tc main_v19) = _
  after_results
  try rfl

theorem V_v21 (c : Dev nD) : (V m c main_v21 : S256x8.Idx → EReal) = ((truncf .bf16 (transpose S256x8 [1, 0] (m ((c : Thread nD τ).loc main_arg17) : FVec Ideal S8x256 .f32) transposes_S8x256_S256x8_1_0) bitsLt_bf16_f32 : FVec Ideal S256x8 .bf16) : S256x8.Idx → EReal) := by
  show StableHlo.after hostOps0 (fun b => m (c, b)) (Proc.devRef .tc main_v21) = _
  after_results
  try rfl

theorem V_v23 (c : Dev nD) : (V m c main_v23 : S256x8.Idx → EReal) = ((truncf .bf16 (transpose S256x8 [1, 0] (m ((c : Thread nD τ).loc main_arg23) : FVec Ideal S8x256 .f32) transposes_S8x256_S256x8_1_0) bitsLt_bf16_f32 : FVec Ideal S256x8 .bf16) : S256x8.Idx → EReal) := by
  show StableHlo.after hostOps0 (fun b => m (c, b)) (Proc.devRef .tc main_v23) = _
  after_results
  try rfl

set_option maxHeartbeats 1000000 in
theorem scale_first_net (c : Dev nD) :
    Net.ofMerged (V m c main_v2) (vec (V m c main_v3)) 0 (by omega) (V m c main_v9) (vec (V m c main_arg4)) (V m c main_v17) (vec (V m c main_arg6))
      = Cert.ReferenceIdeal.Rows.refNet (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [V_v2 m c, V_v3 m c, V_v9 m c, V_main_arg4 m c, V_v17 m c, V_main_arg6 m c]
  exact net_lo _ _ _ _ _ _ _ _

set_option maxHeartbeats 1000000 in
theorem shift_first_net (c : Dev nD) :
    Net.ofMerged (V m c main_v2) (vec (V m c main_v3)) 256 (by omega) (V m c main_v11) (vec (V m c main_arg10)) (V m c main_v19) (vec (V m c main_arg12))
      = Cert.ReferenceIdeal.Rows.refNet (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [V_v2 m c, V_v3 m c, V_v11 m c, V_main_arg10 m c, V_v19 m c, V_main_arg12 m c]
  exact net_hi _ _ _ _ _ _ _ _

set_option maxHeartbeats 1000000 in
theorem scale_second_net (c : Dev nD) :
    Net.ofMerged (V m c main_v6) (vec (V m c main_v7)) 0 (by omega) (V m c main_v13) (vec (V m c main_arg16)) (V m c main_v21) (vec (V m c main_arg18))
      = Cert.ReferenceIdeal.Rows.refNet (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [V_v6 m c, V_v7 m c, V_v13 m c, V_main_arg16 m c, V_v21 m c, V_main_arg18 m c]
  exact net_lo _ _ _ _ _ _ _ _

set_option maxHeartbeats 1000000 in
theorem shift_second_net (c : Dev nD) :
    Net.ofMerged (V m c main_v6) (vec (V m c main_v7)) 256 (by omega) (V m c main_v15) (vec (V m c main_arg22)) (V m c main_v23) (vec (V m c main_arg24))
      = Cert.ReferenceIdeal.Rows.refNet (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  rw [V_v6 m c, V_v7 m c, V_v15 m c, V_main_arg22 m c, V_v23 m c, V_main_arg24 m c]
  exact net_hi _ _ _ _ _ _ _ _

/-- The four perceptrons the region finds are the reference's, of the same parameter arrays. -/
theorem params_eq (c : Dev nD) :
    Blocks.regionParams m c = Cert.ReferenceIdeal.Rows.refParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (congr (congr (congr (congrArg Params.mk (scale_first_net m c)) (shift_first_net m c)) (scale_second_net m c)) (shift_second_net m c))

end Cert.KernelIdeal.Weights

end
-- ==== Proof.Result.lean ====
/-
  The kernel's two results after the run.

  After the region @main slices the [131072, 17] array: its first sixteen columns are the first result, its
  last column, as a vector, the second. With the array holding the coupling layer's row of seventeen in every
  row, the first result holds the output row (y₁, y₂) of row r of x at row r, the second its log-determinant
  at r — the same two whole-array functions the reference's run ends with.
-/
import proofs.«179023_j33071248180133_2_alg».proof.Proof.Gen.KernelIdeal.Frame
import proofs.«179023_j33071248180133_2_alg».proof.Proof.Blocks
import proofs.«179023_j33071248180133_2_alg».proof.Proof.Weights
import proofs.«179023_j33071248180133_2_alg».proof.Proof.HostRows
import Idealize.ShloMosaic.Lib.StableHlo.Run
import Idealize.ShloMosaic.Lib.ValueLayout

set_option maxRecDepth 16384

noncomputable section

namespace Cert.KernelIdeal.Result

open Idealize.ShloMosaic Idealize.ShloMosaic.TcCoe Idealize.ShloMosaic.ValueIdx Idealize.ShloMosaic.StableHlo
open Idealize.SL Idealize.SL.Sem
open Idealize.ShloMosaic.Rounds
open Idealize.ShloMosaic.Pipeline (Dat)
open Cert.KernelIdeal Cert.KernelIdeal.Gen Cert.RowLayers Cert.Coupling Cert.KernelIdeal.Rows

/-- The first sixteen columns of the array of rows of seventeen are the array of output rows. -/
theorem y_of_out (X : FVec Ideal S131072x16 .f32) (P : Params) :
    extractStridedSlice S131072x16 ![0, 0] (Blocks.outArray X P) slices_S131072x17_S131072x16_0_0 = Cert.ReferenceIdeal.Rows.yArray X P :=
  funext fun i => (apply_eq_rowOf _ i).trans
    ((congrFun (rowOf_slice_cols 0 (Blocks.outArray X P) slices_S131072x17_S131072x16_0_0 (i 0)) (i 1)).trans
      (congrFun (cols_outRow P (rowOf X (i 0))) (i 1)))

/-- Its last column, as a vector, is the vector of log-determinants. -/
theorem logDet_of_out (X : FVec Ideal S131072x16 .f32) (P : Params) :
    shapeCast S131072 (extractStridedSlice S131072x1 ![0, 16] (Blocks.outArray X P) slices_S131072x17_S131072x1_0_16) shapeCasts_S131072x1_S131072
      = Cert.ReferenceIdeal.Rows.logDetArray X P := by
  funext i
  obtain ⟨r, rfl⟩ : ∃ r : Fin 131072, i = ix1 r := ⟨i 0, eq_ix1 i⟩
  refine (shapeCast_apply _ shapeCasts_S131072x1_S131072 (ix1 r) (ix2 r (0 : Fin 1)) ?_).trans ?_
  · rw [Shape.rowMajor_val_two, Shape.rowMajor_val_one]
    show r.val * 1 + 0 = r.val
    omega
  · exact (congrFun (rowOf_slice_cols 16 (Blocks.outArray X P) slices_S131072x17_S131072x1_0_16 r) (0 : Fin 1)).trans
      (outRow_last P (rowOf X r))

variable (m : (ℓ : Loc nD τ sig) → Buf (Elt Ideal) ℓ) (ρ : Dev nD → PrngReg)

/-- The region's array after the run, with the parameters read back to @main's arguments. -/
theorem region_array (c : Dev nD) :
    Pipeline.withArrays (cfgs 0).spec c (V0 m c) (fun w => (dats m 0 c).arrAt w (cfgs 0).N) (Proc.devRef .tc main_v24)
      = Blocks.outArray (m ((c : Thread nD τ).loc main_arg0)) (Cert.ReferenceIdeal.Rows.refParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) :=
  (Pipeline.withArrays_arr spec0 launch0.win.arr_inj c _ _ 21).trans
    ((Blocks.final m c).trans (by rw [Weights.params_eq m c, V_main_arg0 m c]))

/-- The first result after the run. -/
theorem tail_y (c : Dev nD) :
    Pipeline.afterTail₀ cfgs (dats m) 0 (V0 m) [hostOps1] c main_v25
      = Cert.ReferenceIdeal.Rows.yArray (m ((c : Thread nD τ).loc main_arg0)) (Cert.ReferenceIdeal.Rows.refParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  unfold Pipeline.afterTail₀
  show StableHlo.after hostOps1 _ (Proc.devRef .tc main_v25) = _
  after_results
  rw [region_array m c]
  exact y_of_out _ _

/-- The second result after the run. -/
theorem tail_logDet (c : Dev nD) :
    Pipeline.afterTail₀ cfgs (dats m) 0 (V0 m) [hostOps1] c main_v27
      = Cert.ReferenceIdeal.Rows.logDetArray (m ((c : Thread nD τ).loc main_arg0)) (Cert.ReferenceIdeal.Rows.refParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  unfold Pipeline.afterTail₀
  show StableHlo.after hostOps1 _ (Proc.devRef .tc main_v27) = _
  after_results
  rw [region_array m c]
  exact logDet_of_out _ _

set_option maxHeartbeats 1500000 in
/-- After the run every argument array holds what it held at the launch: a staged array by the pipeline's post, the others by
    the post's clause for buffers no window stages. -/
theorem kept (dats : (p : Fin 1) → (c : Dev nD) → Dat τ (Elt Ideal) Unit ℕ (UR sig nD τ) ℕ (cfgs p) c)
    (hA : ∀ c w, (dats 0 c).A w = V m c (Pipeline.arrRef spec0 w))
    (r : PUnit × MemSt nD τ sig (Elt Ideal))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24) :=
  ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 4).trans (((dats 0 c).arrAt_in 4 rfl _).trans ((hA c 4).trans (V_main_arg4 m c))),
      (((h c).2 main_arg5 (Pipeline.mem_restRefs_of main_arg5 (by decide) (by decide))).trans (W_main_arg5 m dats c)),
      ((h c).1 6).trans (((dats 0 c).arrAt_in 6 rfl _).trans ((hA c 6).trans (V_main_arg6 m c))),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      ((h c).1 8).trans (((dats 0 c).arrAt_in 8 rfl _).trans ((hA c 8).trans (V_main_arg10 m c))),
      (((h c).2 main_arg11 (Pipeline.mem_restRefs_of main_arg11 (by decide) (by decide))).trans (W_main_arg11 m dats c)),
      ((h c).1 10).trans (((dats 0 c).arrAt_in 10 rfl _).trans ((hA c 10).trans (V_main_arg12 m c))),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c)),
      ((h c).1 14).trans (((dats 0 c).arrAt_in 14 rfl _).trans ((hA c 14).trans (V_main_arg16 m c))),
      (((h c).2 main_arg17 (Pipeline.mem_restRefs_of main_arg17 (by decide) (by decide))).trans (W_main_arg17 m dats c)),
      ((h c).1 16).trans (((dats 0 c).arrAt_in 16 rfl _).trans ((hA c 16).trans (V_main_arg18 m c))),
      (((h c).2 main_arg19 (Pipeline.mem_restRefs_of main_arg19 (by decide) (by decide))).trans (W_main_arg19 m dats c)),
      (((h c).2 main_arg20 (Pipeline.mem_restRefs_of main_arg20 (by decide) (by decide))).trans (W_main_arg20 m dats c)),
      (((h c).2 main_arg21 (Pipeline.mem_restRefs_of main_arg21 (by decide) (by decide))).trans (W_main_arg21 m dats c)),
      ((h c).1 18).trans (((dats 0 c).arrAt_in 18 rfl _).trans ((hA c 18).trans (V_main_arg22 m c))),
      (((h c).2 main_arg23 (Pipeline.mem_restRefs_of main_arg23 (by decide) (by decide))).trans (W_main_arg23 m dats c)),
      ((h c).1 20).trans (((dats 0 c).arrAt_in 20 rfl _).trans ((hA c 20).trans (V_main_arg24 m c)))⟩

end Cert.KernelIdeal.Result

end
-- ==== Proof.lean ====
/-
  A fused affine coupling layer against its plain definition, equal as extended reals.

  Both programs take x : [131072, 16] and the parameters of four perceptrons 8 → 256 → 256 → 8 and return
  y : [131072, 16] and log_det : [131072]. Row by row, with x = (x₁, x₂):
      s = tanh(S₁ x₂)·1,  y₁ = x₁·exp s + T₁ x₂,   s' = tanh(S₂ y₁)·1,  y₂ = x₂·exp s' + T₂ y₁,
      y = (y₁, y₂),  log_det = ∑ s + ∑ s'.
  The reference applies the four perceptrons one by one with host operations on the whole array. The kernel
  works on blocks of 4096 rows; per coupling it multiplies once by the two first-layer matrices stacked side by
  side and takes the two windows of 256 columns, writes (y₁, y₂, log_det) as a row of seventeen, and @main
  slices the two results out afterwards. Every operation of either program acts on each row alone, so both
  sides are read on one row as the same composition of the row functions dense / relu / join
  (Coupling.lean); a window of a merged dense layer is the dense layer of the window, and a column of the
  stacked-then-transposed matrix is a row of one of the stacked matrices (Weights.lean). No law of arithmetic
  is needed beyond 0 + a = a for the host sum's initial value, so the precondition is never opened. The
  changes of float format are the identity on extended reals.

  DeviceRows.lean reads the kernel's body on a row, Blocks.lean goes from the 32 blocks to the whole array,
  Result.lean reads @main's slices after the region, HostRows.lean reads the reference's run on a row.
-/
import proofs.«179023_j33071248180133_2_alg».proof.Defs
import proofs.«179023_j33071248180133_2_alg».proof.Proof.Gen.Kernel
import proofs.«179023_j33071248180133_2_alg».proof.Proof.Gen.Kernel.Skeleton
import proofs.«179023_j33071248180133_2_alg».proof.Proof.Gen.Kernel.Launch
import proofs.«179023_j33071248180133_2_alg».proof.Proof.Gen.Kernel.Points
import proofs.«179023_j33071248180133_2_alg».proof.Proof.Gen.Kernel.Frame
import proofs.«179023_j33071248180133_2_alg».proof.Proof.Gen.KernelIdeal
import proofs.«179023_j33071248180133_2_alg».proof.Proof.Gen.KernelIdeal.Skeleton
import proofs.«179023_j33071248180133_2_alg».proof.Proof.Gen.KernelIdeal.Launch
import proofs.«179023_j33071248180133_2_alg».proof.Proof.Gen.KernelIdeal.Points
import proofs.«179023_j33071248180133_2_alg».proof.Proof.Gen.KernelIdeal.Frame
import proofs.«179023_j33071248180133_2_alg».proof.Proof.Gen.ReferenceIdeal
import proofs.«179023_j33071248180133_2_alg».proof.Proof.Gen.Pre_finite_inputs
import proofs.«179023_j33071248180133_2_alg».proof.Proof.Gen.ReferenceIdeal.Run
import proofs.«179023_j33071248180133_2_alg».proof.Proof.Gen.ReferenceIdeal.Read
import proofs.«179023_j33071248180133_2_alg».proof.Proof.HostRows
import proofs.«179023_j33071248180133_2_alg».proof.Proof.Result
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Both runs end with y at the array of output rows and log_det at the vector of log-determinants of the rows of x,
    for the four perceptrons of the (shared) parameter arrays. -/
theorem algebraic : Cert.algebraic_KernelIdeal_ReferenceIdeal := by
  intro m ρ m' ρ' _ hagree
  refine ⟨fun c => Cert.ReferenceIdeal.Rows.yArray (m ((c.tc : Thread Cert.KernelIdeal.nD Cert.KernelIdeal.τ).loc Cert.KernelIdeal.main_arg0)) (Cert.ReferenceIdeal.Rows.refParams (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))),
    fun c => Cert.ReferenceIdeal.Rows.logDetArray (m ((c.tc : Thread Cert.KernelIdeal.nD Cert.KernelIdeal.τ).loc Cert.KernelIdeal.main_arg0)) (Cert.ReferenceIdeal.Rows.refParams (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))), ?_, ?_⟩
  · exact (θ_run Cert.KernelIdeal.defs _ _).mono (fun r h c =>
      ⟨((h c).2 Cert.KernelIdeal.main_v25 (Pipeline.mem_restRefs_of Cert.KernelIdeal.main_v25 (by decide) (by decide))).trans
          (Cert.KernelIdeal.Result.tail_y m c),
        ((h c).2 Cert.KernelIdeal.main_v27 (Pipeline.mem_restRefs_of Cert.KernelIdeal.main_v27 (by decide) (by decide))).trans
          (Cert.KernelIdeal.Result.tail_logDet m c),
        Cert.KernelIdeal.Result.kept m (Cert.KernelIdeal.Gen.dats m) (Cert.KernelIdeal.Gen.A_eq m) r h c⟩)
      (Cert.KernelIdeal.Gen.run_main m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16, a17, a18, a19, a20, a21, a22, a23, a24⟩ := hagree c
    refine ⟨(h c).1.trans ?_, (h c).2.1.trans ?_, (h c).2.2⟩
    · rw [Cert.ReferenceIdeal.Read.val_main_v82_eq, Cert.ReferenceIdeal.Rows.result_y, a0, a1, a2, a3, a4, a5, a6, a7, a8, a9, a10, a11, a12, a13, a14, a15, a16, a17, a18, a19, a20, a21, a22, a23, a24]
    · rw [Cert.ReferenceIdeal.Read.val_main_v85_eq,
        Cert.ReferenceIdeal.Rows.result_logDet _ _ _ _ _ _ _ _ _ _ _ _ _ _ _ _ _ _ _
          (m' ((c.tc : Thread Cert.ReferenceIdeal.nD Cert.ReferenceIdeal.τ).loc Cert.ReferenceIdeal.main_arg19))
          (m' ((c.tc : Thread Cert.ReferenceIdeal.nD Cert.ReferenceIdeal.τ).loc Cert.ReferenceIdeal.main_arg20))
          (m' ((c.tc : Thread Cert.ReferenceIdeal.nD Cert.ReferenceIdeal.τ).loc Cert.ReferenceIdeal.main_arg21))
          (m' ((c.tc : Thread Cert.ReferenceIdeal.nD Cert.ReferenceIdeal.τ).loc Cert.ReferenceIdeal.main_arg22))
          (m' ((c.tc : Thread Cert.ReferenceIdeal.nD Cert.ReferenceIdeal.τ).loc Cert.ReferenceIdeal.main_arg23))
          (m' ((c.tc : Thread Cert.ReferenceIdeal.nD Cert.ReferenceIdeal.τ).loc Cert.ReferenceIdeal.main_arg24)),
        a0, a1, a2, a3, a4, a5, a6, a7, a8, a9, a10, a11, a12, a13, a14, a15, a16, a17, a18, a19, a20, a21, a22, a23, a24]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
